-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S1048576x4 : Shape := ⟨2, ![1048576, 4]⟩
abbrev S5x64 : Shape := ⟨2, ![5, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S1048576x4 : S_.BroadcastsInDim S1048576x4 (![] : Fin 0 → Fin S1048576x4.rank)
  reducesTo_S1048576x4_S_d0_1 : S1048576x4.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x3 .f32) (main_arg7 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x3 .f32 := Host.absf main_arg6
  let main_cst_10 : FVec F S_ .f32 := constant S_ .f32 0x7F800000#32
  let main_v30 : FVec F S64x3 .f32 := broadcastInDim S64x3 ![] bcast_S_S64x3 main_cst_10
  let main_v31 : IVec S64x3 1 := cmpf .olt main_v29 main_v30
  let main_c_11 : IVec S_ 1 := constantI S_ 1 1#1
  let main_v32 : IVec S_ 1 := (fun x v => Host.reduce IntOp.andi x v reducesTo_S64x3_S_d0_1 h_S_) main_v31 main_c_11
  let main_v33 : IVec S_ 1 := andi main_v28 main_v32
  fn_part2 (F := F) main_arg7 main_v33

def fn {F : FTy → Type} [FloatOps F] (main_arg0 : FVec F S2097152x3 .f32) (main_arg1 : FVec F S1048576x4 .f32) (main_arg2 : FVec F S5x64 .f32) (main_arg3 : FVec F S64 .f32) (main_arg4 : FVec F S64x64 .f32) (main_arg5 : FVec F S64 .f32) (main_arg6 : FVec F S64x3 .f32) (main_arg7 : FVec F S3 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  let main_v9 : FVec F S5x64 .f32 := Host.absf main_arg2
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S2097152x3 : Shape := ⟨2, ![2097152, 3]⟩
abbrev S1048576x4 : Shape := ⟨2, ![1048576, 4]⟩
abbrev S5x64 : Shape := ⟨2, ![5, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2097152x1 : Shape := ⟨2, ![2097152, 1]⟩
abbrev S2097152x2 : Shape := ⟨2, ![2097152, 2]⟩
abbrev S2097152 : Shape := ⟨1, ![2097152]⟩
abbrev S_ : Shape := ⟨0, ![]⟩
abbrev S2097152x4 : Shape := ⟨2, ![2097152, 4]⟩
abbrev S1x2097152 : Shape := ⟨2, ![1, 2097152]⟩
abbrev S4x2097152 : Shape := ⟨2, ![4, 2097152]⟩
abbrev S64x5 : Shape := ⟨2, ![64, 5]⟩
abbrev S64x1 : Shape := ⟨2, ![64, 1]⟩
abbrev S64x4 : Shape := ⟨2, ![64, 4]⟩
abbrev S3x64 : Shape := ⟨2, ![3, 64]⟩
abbrev S3x1 : Shape := ⟨2, ![3, 1]⟩
abbrev S3x2097152 : Shape := ⟨2, ![3, 2097152]⟩
abbrev S1x16384 : Shape := ⟨2, ![1, 16384]⟩
abbrev S4x16384 : Shape := ⟨2, ![4, 16384]⟩
abbrev S3x16384 : Shape := ⟨2, ![3, 16384]⟩
abbrev S64x16384 : Shape := ⟨2, ![64, 16384]⟩

abbrev nBuf : Space → Nat
  | .hbm => 160
  | .vmem => 13
  | .smem => 0
  | _ => 0

abbrev hbmTy0_0 (i : Nat) : BufTy := match i % 128 with
  | 0 => ⟨S2097152x3, .f32⟩
  | 1 => ⟨S1048576x4, .f32⟩
  | 2 => ⟨S5x64, .f32⟩
  | 3 => ⟨S64, .f32⟩
  | 4 => ⟨S64x64, .f32⟩
  | 5 => ⟨S64, .f32⟩
  | 6 => ⟨S64x3, .f32⟩
  | 7 => ⟨S3, .f32⟩
  | 8 => ⟨S2097152x1, .f32⟩
  | 9 => ⟨S2097152x2, .f32⟩
  | 10 => ⟨S2097152x1, .f32⟩
  | 11 => ⟨S2097152, .f32⟩
  | 12 => ⟨S2097152x1, .f32⟩
  | 13 => ⟨S2097152, .f32⟩
  | 14 => ⟨S_, .f32⟩
  | 15 => ⟨S2097152, .f32⟩
  | 16 => ⟨S2097152, .f32⟩
  | 17 => ⟨S2097152, .i32⟩
  | 18 => ⟨S_, .i32⟩
  | 19 => ⟨S2097152, .i32⟩
  | 20 => ⟨S2097152, .i1⟩
  | 21 => ⟨S_, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S_, .i32⟩
  | 35 => ⟨S_, .i32⟩
  | 36 => ⟨S2097152, .i32⟩
  | 37 => ⟨S2097152, .i32⟩
  | 38 => ⟨S_, .f32⟩
  | 39 => ⟨S2097152, .f32⟩
  | 40 => ⟨S2097152, .f32⟩
  | 41 => ⟨S2097152, .i32⟩
  | 42 => ⟨S_, .i32⟩
  | 43 => ⟨S2097152, .i32⟩
  | 44 => ⟨S2097152, .i32⟩
  | 45 => ⟨S_, .i32⟩
  | 46 => ⟨S2097152, .i32⟩
  | 47 => ⟨S2097152, .i1⟩
  | 48 => ⟨S_, .i32⟩
  | 49 => ⟨S2097152, .i32⟩
  | 50 => ⟨S2097152, .i32⟩
  | 51 => ⟨S_, .i32⟩
  | 52 => ⟨S_, .i32⟩
  | 53 => ⟨S2097152, .i32⟩
  | 54 => ⟨S2097152, .i32⟩
  | 55 => ⟨S_, .f32⟩
  | 56 => ⟨S2097152, .f32⟩
  | 57 => ⟨S2097152, .f32⟩
  | 58 => ⟨S2097152, .f32⟩
  | 59 => ⟨S2097152, .f32⟩
  | 60 => ⟨S2097152x1, .f32⟩
  | 61 => ⟨S_, .f32⟩
  | 62 => ⟨S2097152, .f32⟩
  | 63 => ⟨S2097152, .f32⟩
  | 64 => ⟨S2097152, .f32⟩
  | 65 => ⟨S2097152, .f32⟩
  | 66 => ⟨S2097152x1, .f32⟩
  | 67 => ⟨S_, .i32⟩
  | 68 => ⟨S2097152, .i32⟩
  | 69 => ⟨S2097152, .i32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S2097152x1, .i32⟩
  | 79 => ⟨S2097152x4, .f32⟩
  | 80 => ⟨S_, .i32⟩
  | 81 => ⟨S2097152, .i32⟩
  | 82 => ⟨S2097152, .i32⟩
  | 83 => ⟨S2097152, .i32⟩
  | 84 => ⟨S_, .i32⟩
  | 85 => ⟨S2097152, .i32⟩
  | 86 => ⟨S2097152, .i1⟩
  | 87 => ⟨S_, .i32⟩
  | 88 => ⟨S2097152, .i32⟩
  | 89 => ⟨S2097152, .i32⟩
  | 90 => ⟨S2097152, .i32⟩
  | 91 => ⟨S2097152x1, .i32⟩
  | 92 => ⟨S2097152x4, .f32⟩
  | 93 => ⟨S_, .i32⟩
  | 94 => ⟨S2097152, .i32⟩
  | 95 => ⟨S2097152, .i32⟩
  | 96 => ⟨S2097152, .i32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S2097152x1, .i32⟩
  | 105 => ⟨S2097152x4, .f32⟩
  | 106 => ⟨S_, .i32⟩
  | 107 => ⟨S2097152, .i32⟩
  | 108 => ⟨S2097152, .i32⟩
  | 109 => ⟨S2097152, .i32⟩
  | 110 => ⟨S_, .i32⟩
  | 111 => ⟨S2097152, .i32⟩
  | 112 => ⟨S2097152, .i1⟩
  | 113 => ⟨S_, .i32⟩
  | 114 => ⟨S2097152, .i32⟩
  | 115 => ⟨S2097152, .i32⟩
  | 116 => ⟨S2097152, .i32⟩
  | 117 => ⟨S2097152x1, .i32⟩
  | 118 => ⟨S2097152x4, .f32⟩
  | 119 => ⟨S_, .f32⟩
  | 120 => ⟨S2097152x1, .f32⟩
  | 121 => ⟨S2097152x1, .f32⟩
  | 122 => ⟨S2097152x4, .f32⟩
  | 123 => ⟨S2097152x4, .f32⟩
  | 124 => ⟨S2097152x4, .f32⟩
  | 125 => ⟨S2097152x4, .f32⟩
  | 126 => ⟨S2097152x4, .f32⟩
  | 127 => ⟨S_, .f32⟩
  | _ => ⟨S2097152x3, .f32⟩

abbrev hbmTy0_1 (i : Nat) : BufTy := match i % 128 with
  | 0 => ⟨S2097152x1, .f32⟩
  | 1 => ⟨S2097152x1, .f32⟩
  | 2 => ⟨S2097152x4, .f32⟩
  | 3 => ⟨S2097152x4, .f32⟩
  | 4 => ⟨S2097152x4, .f32⟩
  | 5 => ⟨S2097152x4, .f32⟩
  | 6 => ⟨S2097152x4, .f32⟩
  | 7 => ⟨S_, .f32⟩
  | 8 => ⟨S2097152x1, .f32⟩
  | 9 => ⟨S2097152x1, .f32⟩
  | 10 => ⟨S2097152x4, .f32⟩
  | 11 => ⟨S2097152x4, .f32⟩
  | 12 => ⟨S2097152x4, .f32⟩
  | 13 => ⟨S2097152x4, .f32⟩
  | 14 => ⟨S2097152x4, .f32⟩
  | 15 => ⟨S2097152x1, .bf16⟩
  | 16 => ⟨S2097152x4, .bf16⟩
  | 17 => ⟨S1x2097152, .bf16⟩
  | 18 => ⟨S4x2097152, .bf16⟩
  | 19 => ⟨S64x5, .f32⟩
  | 20 => ⟨S64x1, .f32⟩
  | 21 => ⟨S64x4, .f32⟩
  | 22 => ⟨S64x4, .bf16⟩
  | 23 => ⟨S64x64, .f32⟩
  | 24 => ⟨S64x64, .bf16⟩
  | 25 => ⟨S3x64, .f32⟩
  | 26 => ⟨S3x64, .bf16⟩
  | 27 => ⟨S64x1, .f32⟩
  | 28 => ⟨S64x1, .f32⟩
  | 29 => ⟨S3x1, .f32⟩
  | 30 => ⟨S3x2097152, .f32⟩
  | 31 => ⟨S2097152x3, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | .local _ .vmem, ⟨0, _⟩ => ⟨S1x16384, .bf16⟩
  | .local _ .vmem, ⟨1, _⟩ => ⟨S1x16384, .bf16⟩
  | .local _ .vmem, ⟨2, _⟩ => ⟨S4x16384, .bf16⟩
  | .local _ .vmem, ⟨3, _⟩ => ⟨S4x16384, .bf16⟩
  | .local _ .vmem, ⟨4, _⟩ => ⟨S64x1, .f32⟩
  | .local _ .vmem, ⟨5, _⟩ => ⟨S64x4, .bf16⟩
  | .local _ .vmem, ⟨6, _⟩ => ⟨S64x1, .f32⟩
  | .local _ .vmem, ⟨7, _⟩ => ⟨S64x64, .bf16⟩
  | .local _ .vmem, ⟨8, _⟩ => ⟨S64x1, .f32⟩
  | .local _ .vmem, ⟨9, _⟩ => ⟨S3x64, .bf16⟩
  | .local _ .vmem, ⟨10, _⟩ => ⟨S3x1, .f32⟩
  | .local _ .vmem, ⟨11, _⟩ => ⟨S3x16384, .f32⟩
  | .local _ .vmem, ⟨12, _⟩ => ⟨S3x16384, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_call2_v0 : Ref sig .tc := ⟨.hbm, 52, rfl⟩
abbrev main_call2_v1 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_c_14 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_15 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_16 : Ref sig .tc := ⟨.hbm, 84, rfl⟩
abbrev main_v52 : Ref sig .tc := ⟨.hbm, 85, rfl⟩
abbrev main_v53 : Ref sig .tc := ⟨.hbm, 86, rfl⟩
abbrev main_c_17 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_18 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_19 : Ref sig .tc := ⟨.hbm, 97, rfl⟩
abbrev main_v62 : Ref sig .tc := ⟨.hbm, 98, rfl⟩
abbrev main_v63 : Ref sig .tc := ⟨.hbm, 99, rfl⟩
abbrev main_c_20 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_21 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_22 : Ref sig .tc := ⟨.hbm, 110, rfl⟩
abbrev main_v72 : Ref sig .tc := ⟨.hbm, 111, rfl⟩
abbrev main_v73 : Ref sig .tc := ⟨.hbm, 112, rfl⟩
abbrev main_c_23 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_24 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_25 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_26 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2097152x3_S2097152x1_0_0 : S2097152x3.Slices ![0, 0] S2097152x1
  slices_S2097152x3_S2097152x2_0_1 : S2097152x3.Slices ![0, 1] S2097152x2
  slices_S2097152x2_S2097152x1_0_0 : S2097152x2.Slices ![0, 0] S2097152x1
  shapeCasts_S2097152x1_S2097152 : S2097152x1.ShapeCasts S2097152
  slices_S2097152x2_S2097152x1_0_1 : S2097152x2.Slices ![0, 1] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x4_0_1 : S2097152x1.BroadcastsInDim S2097152x4 (![0, 1] : Fin 2 → Fin S2097152x4.rank)
  bitsLt_bf16_f32 : FTy.bits .bf16 < FTy.bits .f32
  transposes_S2097152x1_S1x2097152_1_0 : S2097152x1.Transposes [1, 0] S1x2097152
  transposes_S2097152x4_S4x2097152_1_0 : S2097152x4.Transposes [1, 0] S4x2097152
  transposes_S5x64_S64x5_1_0 : S5x64.Transposes [1, 0] S64x5
  slices_S64x5_S64x1_0_0 : S64x5.Slices ![0, 0] S64x1
  slices_S64x5_S64x4_0_1 : S64x5.Slices ![0, 1] S64x4
  transposes_S64x64_S64x64_1_0 : S64x64.Transposes [1, 0] S64x64
  transposes_S64x3_S3x64_1_0 : S64x3.Transposes [1, 0] S3x64
  shapeCasts_S64_S64x1 : S64.ShapeCasts S64x1
  shapeCasts_S3_S3x1 : S3.ShapeCasts S3x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  broadcasts_S64x1_S64x16384 : S64x1.Broadcasts S64x16384
  broadcasts_S1x16384_S64x16384 : S1x16384.Broadcasts S64x16384
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16384 : S3x1.Broadcasts S3x16384
  inb_S3x16384_S3x16384_0_0 : ∀ a, (![0, 0] : Fin 2 → Nat) a + S3x16384.size a ≤ S3x16384.size a
  h_S3x16384 : 0 < S3x16384.numel
  transposes_S3x2097152_S2097152x3_1_0 : S3x2097152.Transposes [1, 0] S2097152x3
  gather_S1048576x4_S2097152x1_S2097152x4_1_0_n_n_0_1_14_wf : GatherDims.WF S1048576x4 S2097152x1 S2097152x4 [1] [0] [] [0] [] 1 ![1, 4]
  dot_S64x4_S4x16384_S64x16384_1_0_0_1_n_n_wf : DotDims.WF S64x4 S4x16384 S64x16384 [1] [0] [0] [1] [] []
  dot_S64x64_S64x16384_S64x16384_1_0_0_1_n_n_wf : DotDims.WF S64x64 S64x16384 S64x16384 [1] [0] [0] [1] [] []
  dot_S3x64_S64x16384_S3x16384_1_0_0_1_n_n_wf : DotDims.WF S3x64 S64x16384 S3x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x2097152.size a
  hwx0_0 : ∀ i : grid0.Coords, EltTy.bits .bf16 = 32 ∨ (Rect.block (s := S1x2097152) S1x16384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x2097152.size a
  hwx0_1 : ∀ i : grid0.Coords, EltTy.bits .bf16 = 32 ∨ (Rect.block (s := S4x2097152) S4x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .bf16 = 32 ∨ (Rect.block (s := S64x4) S64x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .bf16 = 32 ∨ (Rect.block (s := S3x64) S3x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x16384.size a ≤ S3x2097152.size a
  hwx0_9 : ∀ i : grid0.Coords, EltTy.bits .f32 = 32 ∨ (Rect.block (s := S3x2097152) S3x16384.size (cc0_transform_9 i) (hinb0_9 i)).WholeWords (EltTy.packing .f32)

variable [Facts₀]

def gather_S1048576x4_S2097152x1_S2097152x4_1_0_n_n_0_1_14 : GatherDims S1048576x4 S2097152x1 S2097152x4 where
  offsetDims := [1]
  collapsedSliceDims := [0]
  operandBatchingDims := []
  startIndicesBatchingDims := []
  startIndexMap := [0]
  indexVectorDim := 1
  sliceSizes := ![1, 4]
  wf := gather_S1048576x4_S2097152x1_S2097152x4_1_0_n_n_0_1_14_wf
def dot_S64x4_S4x16384_S64x16384_1_0_0_1_n_n : DotDims S64x4 S4x16384 S64x16384 where
  lhsContracting := [1]
  rhsContracting := [0]
  lhsNonContracting := [0]
  rhsNonContracting := [1]
  lhsBatch := []
  rhsBatch := []
  wf := dot_S64x4_S4x16384_S64x16384_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf
def dot_S3x64_S64x16384_S3x16384_1_0_0_1_n_n : DotDims S3x64 S64x16384 S3x16384 where
  lhsContracting := [1]
  rhsContracting := [0]
  lhsNonContracting := [0]
  rhsNonContracting := [1]
  lhsBatch := []
  rhsBatch := []
  wf := dot_S3x64_S64x16384_S3x16384_1_0_0_1_n_n_wf

abbrev win0_0 : Pipeline.Window sig grid0 :=
  Pipeline.Window.ofSpec (Memref.whole main_v102) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v105) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v107) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v112) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v109) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v113) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v111) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v114) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v115) S3x16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S1048576x4 : Shape := ⟨2, ![1048576, 4]⟩
abbrev S5x64 : Shape := ⟨2, ![5, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2097152x1 : Shape := ⟨2, ![2097152, 1]⟩
abbrev S2097152x2 : Shape := ⟨2, ![2097152, 2]⟩
abbrev S2097152 : Shape := ⟨1, ![2097152]⟩
abbrev S_ : Shape := ⟨0, ![]⟩
abbrev S2097152x4 : Shape := ⟨2, ![2097152, 4]⟩
abbrev S2097152x5 : Shape := ⟨2, ![2097152, 5]⟩
abbrev S2097152x64 : Shape := ⟨2, ![2097152, 64]⟩
abbrev S1x64 : Shape := ⟨2, ![1, 64]⟩
abbrev S1x3 : Shape := ⟨2, ![1, 3]⟩

abbrev nBuf : Space → Nat
  | .hbm => 170
  | .vmem => 0
  | .smem => 0
  | _ => 0

abbrev hbmTy0_0 (i : Nat) : BufTy := match i % 128 with
  | 0 => ⟨S2097152x3, .f32⟩
  | 1 => ⟨S1048576x4, .f32⟩
  | 2 => ⟨S5x64, .f32⟩
  | 3 => ⟨S64, .f32⟩
  | 4 => ⟨S64x64, .f32⟩
  | 5 => ⟨S64, .f32⟩
  | 6 => ⟨S64x3, .f32⟩
  | 7 => ⟨S3, .f32⟩
  | 8 => ⟨S2097152x1, .f32⟩
  | 9 => ⟨S2097152x2, .f32⟩
  | 10 => ⟨S2097152x1, .f32⟩
  | 11 => ⟨S2097152, .f32⟩
  | 12 => ⟨S2097152x1, .f32⟩
  | 13 => ⟨S2097152, .f32⟩
  | 14 => ⟨S_, .f32⟩
  | 15 => ⟨S2097152, .f32⟩
  | 16 => ⟨S2097152, .f32⟩
  | 17 => ⟨S2097152, .i32⟩
  | 18 => ⟨S_, .i32⟩
  | 19 => ⟨S2097152, .i32⟩
  | 20 => ⟨S2097152, .i1⟩
  | 21 => ⟨S_, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S_, .i32⟩
  | 35 => ⟨S_, .i32⟩
  | 36 => ⟨S2097152, .i32⟩
  | 37 => ⟨S2097152, .i32⟩
  | 38 => ⟨S_, .f32⟩
  | 39 => ⟨S2097152, .f32⟩
  | 40 => ⟨S2097152, .f32⟩
  | 41 => ⟨S2097152, .i32⟩
  | 42 => ⟨S_, .i32⟩
  | 43 => ⟨S2097152, .i32⟩
  | 44 => ⟨S2097152, .i32⟩
  | 45 => ⟨S_, .i32⟩
  | 46 => ⟨S2097152, .i32⟩
  | 47 => ⟨S2097152, .i1⟩
  | 48 => ⟨S_, .i32⟩
  | 49 => ⟨S2097152, .i32⟩
  | 50 => ⟨S2097152, .i32⟩
  | 51 => ⟨S_, .i32⟩
  | 52 => ⟨S_, .i32⟩
  | 53 => ⟨S2097152, .i32⟩
  | 54 => ⟨S2097152, .i32⟩
  | 55 => ⟨S_, .f32⟩
  | 56 => ⟨S2097152, .f32⟩
  | 57 => ⟨S2097152, .f32⟩
  | 58 => ⟨S2097152, .f32⟩
  | 59 => ⟨S2097152, .f32⟩
  | 60 => ⟨S2097152x1, .f32⟩
  | 61 => ⟨S_, .f32⟩
  | 62 => ⟨S2097152, .f32⟩
  | 63 => ⟨S2097152, .f32⟩
  | 64 => ⟨S2097152, .f32⟩
  | 65 => ⟨S2097152, .f32⟩
  | 66 => ⟨S2097152x1, .f32⟩
  | 67 => ⟨S_, .i32⟩
  | 68 => ⟨S2097152, .i32⟩
  | 69 => ⟨S2097152, .i32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S2097152x1, .i32⟩
  | 79 => ⟨S2097152x4, .f32⟩
  | 80 => ⟨S_, .i32⟩
  | 81 => ⟨S2097152, .i32⟩
  | 82 => ⟨S2097152, .i32⟩
  | 83 => ⟨S2097152, .i32⟩
  | 84 => ⟨S_, .i32⟩
  | 85 => ⟨S2097152, .i32⟩
  | 86 => ⟨S2097152, .i1⟩
  | 87 => ⟨S_, .i32⟩
  | 88 => ⟨S2097152, .i32⟩
  | 89 => ⟨S2097152, .i32⟩
  | 90 => ⟨S2097152, .i32⟩
  | 91 => ⟨S2097152x1, .i32⟩
  | 92 => ⟨S2097152x4, .f32⟩
  | 93 => ⟨S_, .i32⟩
  | 94 => ⟨S2097152, .i32⟩
  | 95 => ⟨S2097152, .i32⟩
  | 96 => ⟨S2097152, .i32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S2097152x1, .i32⟩
  | 105 => ⟨S2097152x4, .f32⟩
  | 106 => ⟨S_, .i32⟩
  | 107 => ⟨S2097152, .i32⟩
  | 108 => ⟨S2097152, .i32⟩
  | 109 => ⟨S2097152, .i32⟩
  | 110 => ⟨S_, .i32⟩
  | 111 => ⟨S2097152, .i32⟩
  | 112 => ⟨S2097152, .i1⟩
  | 113 => ⟨S_, .i32⟩
  | 114 => ⟨S2097152, .i32⟩
  | 115 => ⟨S2097152, .i32⟩
  | 116 => ⟨S2097152, .i32⟩
  | 117 => ⟨S2097152x1, .i32⟩
  | 118 => ⟨S2097152x4, .f32⟩
  | 119 => ⟨S_, .f32⟩
  | 120 => ⟨S2097152x1, .f32⟩
  | 121 => ⟨S2097152x1, .f32⟩
  | 122 => ⟨S2097152x4, .f32⟩
  | 123 => ⟨S2097152x4, .f32⟩
  | 124 => ⟨S2097152x4, .f32⟩
  | 125 => ⟨S2097152x4, .f32⟩
  | 126 => ⟨S2097152x4, .f32⟩
  | 127 => ⟨S_, .f32⟩
  | _ => ⟨S2097152x3, .f32⟩

abbrev hbmTy0_1 (i : Nat) : BufTy := match i % 128 with
  | 0 => ⟨S2097152x1, .f32⟩
  | 1 => ⟨S2097152x1, .f32⟩
  | 2 => ⟨S2097152x4, .f32⟩
  | 3 => ⟨S2097152x4, .f32⟩
  | 4 => ⟨S2097152x4, .f32⟩
  | 5 => ⟨S2097152x4, .f32⟩
  | 6 => ⟨S2097152x4, .f32⟩
  | 7 => ⟨S_, .f32⟩
  | 8 => ⟨S2097152x1, .f32⟩
  | 9 => ⟨S2097152x1, .f32⟩
  | 10 => ⟨S2097152x4, .f32⟩
  | 11 => ⟨S2097152x4, .f32⟩
  | 12 => ⟨S2097152x4, .f32⟩
  | 13 => ⟨S2097152x4, .f32⟩
  | 14 => ⟨S2097152x4, .f32⟩
  | 15 => ⟨S2097152x5, .f32⟩
  | 16 => ⟨S2097152x64, .f32⟩
  | 17 => ⟨S1x64, .f32⟩
  | 18 => ⟨S2097152x64, .f32⟩
  | 19 => ⟨S2097152x64, .f32⟩
  | 20 => ⟨S_, .f32⟩
  | 21 => ⟨S2097152x64, .f32⟩
  | 22 => ⟨S2097152x64, .f32⟩
  | 23 => ⟨S2097152x64, .f32⟩
  | 24 => ⟨S1x64, .f32⟩
  | 25 => ⟨S2097152x64, .f32⟩
  | 26 => ⟨S2097152x64, .f32⟩
  | 27 => ⟨S_, .f32⟩
  | 28 => ⟨S2097152x64, .f32⟩
  | 29 => ⟨S2097152x64, .f32⟩
  | 30 => ⟨S2097152x3, .f32⟩
  | 31 => ⟨S1x3, .f32⟩
  | 32 => ⟨S2097152x3, .f32⟩
  | 33 => ⟨S2097152x3, .f32⟩
  | 34 => ⟨S2097152x3, .f32⟩
  | 35 => ⟨S2097152x3, .f32⟩
  | 36 => ⟨S_, .f32⟩
  | 37 => ⟨S2097152x3, .f32⟩
  | 38 => ⟨S2097152x3, .f32⟩
  | 39 => ⟨S_, .f32⟩
  | 40 => ⟨S2097152x3, .f32⟩
  | 41 => ⟨S2097152x3, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_call2_v0 : Ref sig .tc := ⟨.hbm, 52, rfl⟩
abbrev main_call2_v1 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_c_14 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_15 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_16 : Ref sig .tc := ⟨.hbm, 84, rfl⟩
abbrev main_v52 : Ref sig .tc := ⟨.hbm, 85, rfl⟩
abbrev main_v53 : Ref sig .tc := ⟨.hbm, 86, rfl⟩
abbrev main_c_17 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_18 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_19 : Ref sig .tc := ⟨.hbm, 97, rfl⟩
abbrev main_v62 : Ref sig .tc := ⟨.hbm, 98, rfl⟩
abbrev main_v63 : Ref sig .tc := ⟨.hbm, 99, rfl⟩
abbrev main_c_20 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_21 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_22 : Ref sig .tc := ⟨.hbm, 110, rfl⟩
abbrev main_v72 : Ref sig .tc := ⟨.hbm, 111, rfl⟩
abbrev main_v73 : Ref sig .tc := ⟨.hbm, 112, rfl⟩
abbrev main_c_23 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_24 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_25 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_26 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_call3_cst : Ref sig .tc := ⟨.hbm, 148, rfl⟩
abbrev main_call3_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_call4_cst : Ref sig .tc := ⟨.hbm, 155, rfl⟩
abbrev main_call4_v0 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_27 : Ref sig .tc := ⟨.hbm, 164, rfl⟩
abbrev main_v117 : Ref sig .tc := ⟨.hbm, 165, rfl⟩
abbrev main_v118 : Ref sig .tc := ⟨.hbm, 166, rfl⟩
abbrev main_cst_28 : Ref sig .tc := ⟨.hbm, 167, rfl⟩
abbrev main_v119 : Ref sig .tc := ⟨.hbm, 168, rfl⟩
abbrev main_v120 : Ref sig .tc := ⟨.hbm, 169, rfl⟩

abbrev nD : Nat := 1
abbrev τ : Topo := Topo.v7x

variable {F : FTy → Type} [FloatOps F]

class Facts₀ : Prop where
  slices_S2097152x3_S2097152x1_0_0 : S2097152x3.Slices ![0, 0] S2097152x1
  slices_S2097152x3_S2097152x2_0_1 : S2097152x3.Slices ![0, 1] S2097152x2
  slices_S2097152x2_S2097152x1_0_0 : S2097152x2.Slices ![0, 0] S2097152x1
  shapeCasts_S2097152x1_S2097152 : S2097152x1.ShapeCasts S2097152
  slices_S2097152x2_S2097152x1_0_1 : S2097152x2.Slices ![0, 1] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x4_0_1 : S2097152x1.BroadcastsInDim S2097152x4 (![0, 1] : Fin 2 → Fin S2097152x4.rank)
  concatenates_S2097152x1_S2097152x4_S2097152x5_d1 : Shape.Concatenates [S2097152x1, S2097152x4] S2097152x5 1
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  gather_S1048576x4_S2097152x1_S2097152x4_1_0_n_n_0_1_14_wf : GatherDims.WF S1048576x4 S2097152x1 S2097152x4 [1] [0] [] [0] [] 1 ![1, 4]
  dot_S2097152x5_S5x64_S2097152x64_1_0_0_1_n_n_wf : DotDims.WF S2097152x5 S5x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def gather_S1048576x4_S2097152x1_S2097152x4_1_0_n_n_0_1_14 : GatherDims S1048576x4 S2097152x1 S2097152x4 where
  offsetDims := [1]
  collapsedSliceDims := [0]
  operandBatchingDims := []
  startIndicesBatchingDims := []
  startIndexMap := [0]
  indexVectorDim := 1
  sliceSizes := ![1, 4]
  wf := gather_S1048576x4_S2097152x1_S2097152x4_1_0_n_n_0_1_14_wf
def dot_S2097152x5_S5x64_S2097152x64_1_0_0_1_n_n : DotDims S2097152x5 S5x64 S2097152x64 where
  lhsContracting := [1]
  rhsContracting := [0]
  lhsNonContracting := [0]
  rhsNonContracting := [1]
  lhsBatch := []
  rhsBatch := []
  wf := dot_S2097152x5_S5x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Mlp.lean ====
/-
  One row of a three-layer perceptron on the extended reals, and the laws by which two arrangements of its
  arithmetic agree.

  A row has an identifier feature `u` and four interpolated grid features `g 0 … g 3`. The first layer multiplies
  the five inputs by a 5 × 64 weight matrix, adds a bias and clamps below at zero; the second does the same with a
  64 × 64 matrix; the third maps the 64 hidden values to 3 with a 64 × 3 matrix and a bias, and the logistic function
  `x ↦ 1 / (1 + e⁻ˣ)` is applied to each.

  The two arrangements differ in three ways, none of which needs the entries to be finite, because addition and
  multiplication of extended reals are commutative and associative:
    • the first layer's sum over the five inputs is taken whole, or as the identifier's term beside the sum over the
      four grid features;
    • a product is `weight · value` or `value · weight`, and a sum starts from an accumulator that is zero;
    • the logistic function is one operation, or is spelt `1 / (1 + exp (−x))` with the float word of one.
-/
import Idealize.ShloMosaic.PureOps.Ideal
import Idealize.ShloMosaic.PureOps.Ideal.Laws
import Idealize.ShloMosaic.Lib.IdealHost
import Mathlib.Algebra.BigOperators.Fin

noncomputable section

namespace Cert.Mlp

open Idealize.ShloMosaic

/-- The threshold of the clamp: zero, written as the float word with which both programs spell it. -/
abbrev floor0 : EReal := Ideal.ofBits .f32 0x00000000#32

/-- Entry `a` of the first hidden layer of a row: the identifier's term (weights `wu`, the first row of the 5 × 64
    matrix), the four grid features' terms (weights `wg`, its other four rows), the bias, clamped below. -/
def hid1 (u : EReal) (g : Fin 4 → EReal) (wu : Fin 64 → EReal) (wg : Fin 4 → Fin 64 → EReal) (b1 : Fin 64 → EReal)
    (a : Fin 64) : EReal :=
  max (u * wu a + ∑ k : Fin 4, g k * wg k a + b1 a) floor0

/-- Entry `a` of the second hidden layer, from the first. -/
def hid2 (h : Fin 64 → EReal) (w2 : Fin 64 → Fin 64 → EReal) (b2 : Fin 64 → EReal) (a : Fin 64) : EReal :=
  max (∑ k : Fin 64, h k * w2 k a + b2 a) floor0

/-- Output `c` of a row, from the second hidden layer. -/
def out (h : Fin 64 → EReal) (w3 : Fin 64 → Fin 3 → EReal) (b3 : Fin 3 → EReal) (c : Fin 3) : EReal :=
  Ideal.logistic (∑ k : Fin 64, h k * w3 k c + b3 c)

/-- The whole row: three outputs from the identifier, the grid features and the parameter arrays. -/
def row (u : EReal) (g : Fin 4 → EReal) (wu : Fin 64 → EReal) (wg : Fin 4 → Fin 64 → EReal) (b1 : Fin 64 → EReal)
    (w2 : Fin 64 → Fin 64 → EReal) (b2 : Fin 64 → EReal) (w3 : Fin 64 → Fin 3 → EReal) (b3 : Fin 3 → EReal)
    (c : Fin 3) : EReal :=
  out (hid2 (hid1 u g wu wg b1) w2 b2) w3 b3 c

/-- A row's outputs depend only on the values of its inputs: equal identifier, features and parameters, entry by entry,
    give equal outputs. -/
theorem row_congr {u u' : EReal} {g g' : Fin 4 → EReal} {wu wu' : Fin 64 → EReal} {wg wg' : Fin 4 → Fin 64 → EReal}
    {b1 b1' : Fin 64 → EReal} {w2 w2' : Fin 64 → Fin 64 → EReal} {b2 b2' : Fin 64 → EReal}
    {w3 w3' : Fin 64 → Fin 3 → EReal} {b3 b3' : Fin 3 → EReal} {c c' : Fin 3}
    (hu : u = u') (hg : ∀ k, g k = g' k) (hwu : ∀ a, wu a = wu' a) (hwg : ∀ k a, wg k a = wg' k a)
    (hb1 : ∀ a, b1 a = b1' a) (hw2 : ∀ k a, w2 k a = w2' k a) (hb2 : ∀ a, b2 a = b2' a)
    (hw3 : ∀ k c, w3 k c = w3' k c) (hb3 : ∀ c, b3 c = b3' c) (hc : c = c') :
    row u g wu wg b1 w2 b2 w3 b3 c = row u' g' wu' wg' b1' w2' b2' w3' b3' c' := by
  obtain rfl : g = g' := funext hg
  obtain rfl : wu = wu' := funext hwu
  obtain rfl : wg = wg' := funext fun k => funext (hwg k)
  obtain rfl : b1 = b1' := funext hb1
  obtain rfl : w2 = w2' := funext fun k => funext (hw2 k)
  obtain rfl : b2 = b2' := funext hb2
  obtain rfl : w3 = w3' := funext fun k => funext (hw3 k)
  obtain rfl : b3 = b3' := funext hb3
  rw [hu, hc]

/-! ## The first layer, two ways -/

/-- The sum over the five joined inputs is the identifier's term plus the sum over the four grid features. -/
theorem sum_joined (cat w : Fin 5 → EReal) (u : EReal) (g : Fin 4 → EReal) (h0 : cat 0 = u)
    (hs : ∀ k : Fin 4, cat k.succ = g k) :
    ∑ k : Fin 5, cat k * w k = u * w 0 + ∑ k : Fin 4, g k * w k.succ := by
  rw [Fin.sum_univ_succ, h0]
  exact congrArg (u * w 0 + ·) (Finset.sum_congr rfl fun k _ => by rw [hs k])

/-- The split form: the grid features' sum with the weights on the left, then the identifier's term with its weight
    on the left, then the bias. -/
theorem split_first (u w0 b : EReal) (g w : Fin 4 → EReal) :
    (∑ k : Fin 4, w k * g k) + w0 * u + b = u * w0 + ∑ k : Fin 4, g k * w k + b := by
  rw [add_comm (∑ k : Fin 4, w k * g k) (w0 * u), mul_comm w0 u]
  exact congrArg (fun s => u * w0 + s + b) (Finset.sum_congr rfl fun k _ => mul_comm _ _)

/-- Weights on the left or on the right of each product of a sum. -/
theorem sum_mul_comm {n : Nat} (w h : Fin n → EReal) : ∑ k : Fin n, w k * h k = ∑ k : Fin n, h k * w k :=
  Finset.sum_congr rfl fun k _ => mul_comm _ _

/-! ## The logistic function, spelt out -/

/-- `1 / (1 + exp (−x))` with the float word of one is the logistic function, on every extended real. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

end Cert.Mlp

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Payload.lean ====
/-
  The kernel body's arithmetic, read at one entry of the output block.

  At a grid point the body holds nine blocks: the identifier row (1 × 16384), the grid features (4 × 16384, feature-major:
  one column per row of the batch), and the parameters — the identifier's weight column (64 × 1), the grid features'
  weights (64 × 4), the first bias (64 × 1), the second layer's weights (64 × 64, output-major) and bias (64 × 1), the
  third layer's weights (3 × 64, output-major) and bias (3 × 1). Column `q` of the 3 × 16384 result depends on column
  `q` of the first two blocks only: entry `(p, q)` is output `p` of the perceptron row whose identifier is entry
  `(0, q)` of the first block and whose grid features are column `q` of the second.

  Each matrix product is a sum over its contracted axis, started from a zero accumulator; a change of float format
  is the identity on the extended reals; a column broadcast along the lanes reads its row's entry, and the one-row
  block broadcast down the sublanes reads its column's entry.
-/
import proofs.«130771_j3255585210920_2_alg».proof.Proof.Gen.KernelIdeal.Skeleton
import proofs.«130771_j3255585210920_2_alg».proof.Proof.Mlp
import proofs.«130771_j3255585210920_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The three matrix products as sums -/

/-- The 64 × 4 by 4 × 16384 product into a zero accumulator: entry `(a, q)` sums over the four grid features. -/
theorem prod_first (l : FVec Ideal S64x4 .bf16) (r : FVec Ideal S4x16384 .bf16) (a : Fin 64) (q : Fin 16384) :
    matmul dot_S64x4_S4x16384_S64x16384_1_0_0_1_n_n none l r (constant (F := Ideal) S64x16384 .f32 0x00000000#32) (ix2 a q)
      = ∑ k : Fin 4, l (ix2 a k) * r (ix2 k q) := by
  have h0 : ∀ (kk : dot_S64x4_S4x16384_S64x16384_1_0_0_1_n_n.contr.Idx), (dot_S64x4_S4x16384_S64x16384_1_0_0_1_n_n.lhsIdx (ix2 a q) kk 0).val = a.val := fun kk => by
    unfold DotDims.lhsIdx
    rw [dif_neg (show ¬(0 : Fin S64x4.rank) ∈ dot_S64x4_S4x16384_S64x16384_1_0_0_1_n_n.lhsBatch by decide),
      dif_pos (show (0 : Fin S64x4.rank) ∈ dot_S64x4_S4x16384_S64x16384_1_0_0_1_n_n.lhsNonContracting by decide)]
    rfl
  have h1 : ∀ (kk : dot_S64x4_S4x16384_S64x16384_1_0_0_1_n_n.contr.Idx), (dot_S64x4_S4x16384_S64x16384_1_0_0_1_n_n.rhsIdx (ix2 a q) kk 1).val = q.val := fun kk => by
    unfold DotDims.rhsIdx
    rw [dif_neg (show ¬(1 : Fin S4x16384.rank) ∈ dot_S64x4_S4x16384_S64x16384_1_0_0_1_n_n.rhsBatch by decide),
      dif_pos (show (1 : Fin S4x16384.rank) ∈ dot_S64x4_S4x16384_S64x16384_1_0_0_1_n_n.rhsNonContracting by decide)]
    rfl
  refine (Ideal.matmul_constant_zero_apply dot_S64x4_S4x16384_S64x16384_1_0_0_1_n_n none l r (ix2 a q)).trans ?_
  rw [← Equiv.sum_comp (contrEquiv1 dot_S64x4_S4x16384_S64x16384_1_0_0_1_n_n 4 rfl rfl).symm]
  refine Finset.sum_congr rfl fun k _ => ?_
  have hk := contrEquiv1_symm_val dot_S64x4_S4x16384_S64x16384_1_0_0_1_n_n 4 rfl rfl k
  have el : dot_S64x4_S4x16384_S64x16384_1_0_0_1_n_n.lhsIdx (ix2 a q) ((contrEquiv1 dot_S64x4_S4x16384_S64x16384_1_0_0_1_n_n 4 rfl rfl).symm k) = ix2 a k := funext fun b => Fin.ext (by
    match b with
    | ⟨0, _⟩ => exact h0 _
    | ⟨1, _⟩ => exact (dot_S64x4_S4x16384_S64x16384_1_0_0_1_n_n.lhsIdx_val_of_single rfl _ _).trans hk)
  have er : dot_S64x4_S4x16384_S64x16384_1_0_0_1_n_n.rhsIdx (ix2 a q) ((contrEquiv1 dot_S64x4_S4x16384_S64x16384_1_0_0_1_n_n 4 rfl rfl).symm k) = ix2 k q := funext fun b => Fin.ext (by
    match b with
    | ⟨0, _⟩ => exact (dot_S64x4_S4x16384_S64x16384_1_0_0_1_n_n.rhsIdx_val_of_single rfl _ _).trans hk
    | ⟨1, _⟩ => exact h1 _)
  rw [el, er]

/-- The 64 × 64 by 64 × 16384 product into a zero accumulator: entry `(a, q)` sums over the first hidden layer. -/
theorem prod_second (l : FVec Ideal S64x64 .bf16) (r : FVec Ideal S64x16384 .bf16) (a : Fin 64) (q : Fin 16384) :
    matmul dot_S64x64_S64x16384_S64x16384_1_0_0_1_n_n none l r (constant (F := Ideal) S64x16384 .f32 0x00000000#32) (ix2 a q)
      = ∑ k : Fin 64, l (ix2 a k) * r (ix2 k q) := by
  have h0 : ∀ (kk : dot_S64x64_S64x16384_S64x16384_1_0_0_1_n_n.contr.Idx), (dot_S64x64_S64x16384_S64x16384_1_0_0_1_n_n.lhsIdx (ix2 a q) kk 0).val = a.val := fun kk => by
    unfold DotDims.lhsIdx
    rw [dif_neg (show ¬(0 : Fin S64x64.rank) ∈ dot_S64x64_S64x16384_S64x16384_1_0_0_1_n_n.lhsBatch by decide),
      dif_pos (show (0 : Fin S64x64.rank) ∈ dot_S64x64_S64x16384_S64x16384_1_0_0_1_n_n.lhsNonContracting by decide)]
    rfl
  have h1 : ∀ (kk : dot_S64x64_S64x16384_S64x16384_1_0_0_1_n_n.contr.Idx), (dot_S64x64_S64x16384_S64x16384_1_0_0_1_n_n.rhsIdx (ix2 a q) kk 1).val = q.val := fun kk => by
    unfold DotDims.rhsIdx
    rw [dif_neg (show ¬(1 : Fin S64x16384.rank) ∈ dot_S64x64_S64x16384_S64x16384_1_0_0_1_n_n.rhsBatch by decide),
      dif_pos (show (1 : Fin S64x16384.rank) ∈ dot_S64x64_S64x16384_S64x16384_1_0_0_1_n_n.rhsNonContracting by decide)]
    rfl
  refine (Ideal.matmul_constant_zero_apply dot_S64x64_S64x16384_S64x16384_1_0_0_1_n_n none l r (ix2 a q)).trans ?_
  rw [← Equiv.sum_comp (contrEquiv1 dot_S64x64_S64x16384_S64x16384_1_0_0_1_n_n 64 rfl rfl).symm]
  refine Finset.sum_congr rfl fun k _ => ?_
  have hk := contrEquiv1_symm_val dot_S64x64_S64x16384_S64x16384_1_0_0_1_n_n 64 rfl rfl k
  have el : dot_S64x64_S64x16384_S64x16384_1_0_0_1_n_n.lhsIdx (ix2 a q) ((contrEquiv1 dot_S64x64_S64x16384_S64x16384_1_0_0_1_n_n 64 rfl rfl).symm k) = ix2 a k := funext fun b => Fin.ext (by
    match b with
    | ⟨0, _⟩ => exact h0 _
    | ⟨1, _⟩ => exact (dot_S64x64_S64x16384_S64x16384_1_0_0_1_n_n.lhsIdx_val_of_single rfl _ _).trans hk)
  have er : dot_S64x64_S64x16384_S64x16384_1_0_0_1_n_n.rhsIdx (ix2 a q) ((contrEquiv1 dot_S64x64_S64x16384_S64x16384_1_0_0_1_n_n 64 rfl rfl).symm k) = ix2 k q := funext fun b => Fin.ext (by
    match b with
    | ⟨0, _⟩ => exact (dot_S64x64_S64x16384_S64x16384_1_0_0_1_n_n.rhsIdx_val_of_single rfl _ _).trans hk
    | ⟨1, _⟩ => exact h1 _)
  rw [el, er]

/-- The 3 × 64 by 64 × 16384 product into a zero accumulator: entry `(p, q)` sums over the second hidden layer. -/
theorem prod_third (l : FVec Ideal S3x64 .bf16) (r : FVec Ideal S64x16384 .bf16) (a : Fin 3) (q : Fin 16384) :
    matmul dot_S3x64_S64x16384_S3x16384_1_0_0_1_n_n none l r (constant (F := Ideal) S3x16384 .f32 0x00000000#32) (ix2 a q)
      = ∑ k : Fin 64, l (ix2 a k) * r (ix2 k q) := by
  have h0 : ∀ (kk : dot_S3x64_S64x16384_S3x16384_1_0_0_1_n_n.contr.Idx), (dot_S3x64_S64x16384_S3x16384_1_0_0_1_n_n.lhsIdx (ix2 a q) kk 0).val = a.val := fun kk => by
    unfold DotDims.lhsIdx
    rw [dif_neg (show ¬(0 : Fin S3x64.rank) ∈ dot_S3x64_S64x16384_S3x16384_1_0_0_1_n_n.lhsBatch by decide),
      dif_pos (show (0 : Fin S3x64.rank) ∈ dot_S3x64_S64x16384_S3x16384_1_0_0_1_n_n.lhsNonContracting by decide)]
    rfl
  have h1 : ∀ (kk : dot_S3x64_S64x16384_S3x16384_1_0_0_1_n_n.contr.Idx), (dot_S3x64_S64x16384_S3x16384_1_0_0_1_n_n.rhsIdx (ix2 a q) kk 1).val = q.val := fun kk => by
    unfold DotDims.rhsIdx
    rw [dif_neg (show ¬(1 : Fin S64x16384.rank) ∈ dot_S3x64_S64x16384_S3x16384_1_0_0_1_n_n.rhsBatch by decide),
      dif_pos (show (1 : Fin S64x16384.rank) ∈ dot_S3x64_S64x16384_S3x16384_1_0_0_1_n_n.rhsNonContracting by decide)]
    rfl
  refine (Ideal.matmul_constant_zero_apply dot_S3x64_S64x16384_S3x16384_1_0_0_1_n_n none l r (ix2 a q)).trans ?_
  rw [← Equiv.sum_comp (contrEquiv1 dot_S3x64_S64x16384_S3x16384_1_0_0_1_n_n 64 rfl rfl).symm]
  refine Finset.sum_congr rfl fun k _ => ?_
  have hk := contrEquiv1_symm_val dot_S3x64_S64x16384_S3x16384_1_0_0_1_n_n 64 rfl rfl k
  have el : dot_S3x64_S64x16384_S3x16384_1_0_0_1_n_n.lhsIdx (ix2 a q) ((contrEquiv1 dot_S3x64_S64x16384_S3x16384_1_0_0_1_n_n 64 rfl rfl).symm k) = ix2 a k := funext fun b => Fin.ext (by
    match b with
    | ⟨0, _⟩ => exact h0 _
    | ⟨1, _⟩ => exact (dot_S3x64_S64x16384_S3x16384_1_0_0_1_n_n.lhsIdx_val_of_single rfl _ _).trans hk)
  have er : dot_S3x64_S64x16384_S3x16384_1_0_0_1_n_n.rhsIdx (ix2 a q) ((contrEquiv1 dot_S3x64_S64x16384_S3x16384_1_0_0_1_n_n 64 rfl rfl).symm k) = ix2 k q := funext fun b => Fin.ext (by
    match b with
    | ⟨0, _⟩ => exact (dot_S3x64_S64x16384_S3x16384_1_0_0_1_n_n.rhsIdx_val_of_single rfl _ _).trans hk
    | ⟨1, _⟩ => exact h1 _)
  rw [el, er]

/-! ## The layers, as the body computes them -/

/-- The first hidden layer as the body forms it: the grid features' product, plus the identifier's weight column times
    the identifier row (each broadcast to 64 × 16384), plus the bias column, clamped below at zero. -/
def layer1 (idr : FVec Ideal S1x16384 .f32) (gr : FVec Ideal S4x16384 .bf16) (wu : FVec Ideal S64x1 .f32)
    (wg : FVec Ideal S64x4 .bf16) (b : FVec Ideal S64x1 .f32) : FVec Ideal S64x16384 .f32 :=
  maximumf (addf (addf (matmul dot_S64x4_S4x16384_S64x16384_1_0_0_1_n_n none wg gr (constant (F := Ideal) S64x16384 .f32 0x00000000#32))
      (mulf (broadcastTo S64x16384 wu broadcasts_S64x1_S64x16384) (broadcastTo S64x16384 idr broadcasts_S1x16384_S64x16384)))
      (broadcastTo S64x16384 b broadcasts_S64x1_S64x16384))
    (broadcast S64x16384 (Scalar.ofBits (F := Ideal) .f32 0x00000000#32))

/-- The second hidden layer as the body forms it, from the first. -/
def layer2 (h : FVec Ideal S64x16384 .bf16) (w : FVec Ideal S64x64 .bf16) (b : FVec Ideal S64x1 .f32) : FVec Ideal S64x16384 .f32 :=
  maximumf (addf (matmul dot_S64x64_S64x16384_S64x16384_1_0_0_1_n_n none w h (constant (F := Ideal) S64x16384 .f32 0x00000000#32))
      (broadcastTo S64x16384 b broadcasts_S64x1_S64x16384))
    (broadcast S64x16384 (Scalar.ofBits (F := Ideal) .f32 0x00000000#32))

/-- The outputs as the body forms them, from the second hidden layer. -/
def layer3 (h : FVec Ideal S64x16384 .bf16) (w : FVec Ideal S3x64 .bf16) (b : FVec Ideal S3x1 .f32) : FVec Ideal S3x16384 .f32 :=
  logistic (addf (matmul dot_S3x64_S64x16384_S3x16384_1_0_0_1_n_n none w h (constant (F := Ideal) S3x16384 .f32 0x00000000#32))
      (broadcastTo S3x16384 b broadcasts_S3x1_S3x16384))

/-- Entry `(a, q)` of the first hidden layer is the perceptron's, for the row whose identifier and grid features sit in
    column `q`. -/
theorem layer1_apply (idr : FVec Ideal S1x16384 .f32) (gr : FVec Ideal S4x16384 .bf16) (wu : FVec Ideal S64x1 .f32)
    (wg : FVec Ideal S64x4 .bf16) (b : FVec Ideal S64x1 .f32) (a : Fin 64) (q : Fin 16384) :
    layer1 idr gr wu wg b (ix2 a q)
      = Mlp.hid1 (idr (ix2 (0 : Fin 1) q)) (fun k => gr (ix2 k q)) (fun a => wu (ix2 a (0 : Fin 1)))
          (fun k a => wg (ix2 a k)) (fun a => b (ix2 a (0 : Fin 1))) a := by
  show max (matmul dot_S64x4_S4x16384_S64x16384_1_0_0_1_n_n none wg gr (constant (F := Ideal) S64x16384 .f32 0x00000000#32) (ix2 a q)
      + broadcastTo S64x16384 wu broadcasts_S64x1_S64x16384 (ix2 a q) * broadcastTo S64x16384 idr broadcasts_S1x16384_S64x16384 (ix2 a q)
      + broadcastTo S64x16384 b broadcasts_S64x1_S64x16384 (ix2 a q)) Mlp.floor0 = _
  rw [prod_first, Cert.Lib.Keepdims.broadcastTo_a1_ab_apply, broadcastTo_1b_ab_apply, Cert.Lib.Keepdims.broadcastTo_a1_ab_apply]
  exact congrArg (max · Mlp.floor0) (Mlp.split_first _ _ _ _ _)

/-- Entry `(a, q)` of the second hidden layer, from column `q` of the first. -/
theorem layer2_apply (h : FVec Ideal S64x16384 .bf16) (w : FVec Ideal S64x64 .bf16) (b : FVec Ideal S64x1 .f32)
    (a : Fin 64) (q : Fin 16384) :
    layer2 h w b (ix2 a q)
      = Mlp.hid2 (fun k => h (ix2 k q)) (fun k a => w (ix2 a k)) (fun a => b (ix2 a (0 : Fin 1))) a := by
  show max (matmul dot_S64x64_S64x16384_S64x16384_1_0_0_1_n_n none w h (constant (F := Ideal) S64x16384 .f32 0x00000000#32) (ix2 a q)
      + broadcastTo S64x16384 b broadcasts_S64x1_S64x16384 (ix2 a q)) Mlp.floor0 = _
  rw [prod_second, Cert.Lib.Keepdims.broadcastTo_a1_ab_apply]
  exact congrArg (fun s => max (s + b (ix2 a (0 : Fin 1))) Mlp.floor0) (Mlp.sum_mul_comm _ _)

/-- Entry `(p, q)` of the outputs, from column `q` of the second hidden layer. -/
theorem layer3_apply (h : FVec Ideal S64x16384 .bf16) (w : FVec Ideal S3x64 .bf16) (b : FVec Ideal S3x1 .f32)
    (p : Fin 3) (q : Fin 16384) :
    layer3 h w b (ix2 p q)
      = Mlp.out (fun k => h (ix2 k q)) (fun k c => w (ix2 c k)) (fun c => b (ix2 c (0 : Fin 1))) p := by
  show Ideal.logistic (matmul dot_S3x64_S64x16384_S3x16384_1_0_0_1_n_n none w h (constant (F := Ideal) S3x16384 .f32 0x00000000#32) (ix2 p q)
      + broadcastTo S3x16384 b broadcasts_S3x1_S3x16384 (ix2 p q)) = _
  rw [prod_third, Cert.Lib.Keepdims.broadcastTo_a1_ab_apply]
  exact congrArg (fun s => Ideal.logistic (s + b (ix2 p (0 : Fin 1)))) (Mlp.sum_mul_comm _ _)

/-! ## The payload is the three layers -/

/-- The body's stored value, as a function of its nine loaded blocks: the identity casts and the changes of float
    format dropped, it is the three layers composed. -/
theorem payload_eq (x0 : Vec Ideal S1x16384 .bf16) (x1 : Vec Ideal S4x16384 .bf16) (x2 : Vec Ideal S64x1 .f32)
    (x3 : Vec Ideal S64x4 .bf16) (x4 : Vec Ideal S64x1 .f32) (x5 : Vec Ideal S64x64 .bf16) (x6 : Vec Ideal S64x1 .f32)
    (x7 : Vec Ideal S3x64 .bf16) (x8 : Vec Ideal S3x1 .f32) :
    k0_pay1 (F := Ideal) (k0_pay2 x8) (k0_pay3 x0 x1 x2 x3 x4 x5 x6 x7)
      = layer3 (layer2 (layer1 x0 x1 x2 x3 x4) x5 x6) x7 x8 := by
  unfold k0_pay1 k0_pay2 k0_pay3
  simp only [shapeCast_self]
  rfl

/-- Entry `(p, q)` of the stored block is output `p` of the perceptron row of column `q`. -/
theorem payload_apply (x0 : Vec Ideal S1x16384 .bf16) (x1 : Vec Ideal S4x16384 .bf16) (x2 : Vec Ideal S64x1 .f32)
    (x3 : Vec Ideal S64x4 .bf16) (x4 : Vec Ideal S64x1 .f32) (x5 : Vec Ideal S64x64 .bf16) (x6 : Vec Ideal S64x1 .f32)
    (x7 : Vec Ideal S3x64 .bf16) (x8 : Vec Ideal S3x1 .f32) (p : Fin 3) (q : Fin 16384) :
    k0_pay1 (F := Ideal) (k0_pay2 x8) (k0_pay3 x0 x1 x2 x3 x4 x5 x6 x7) (ix2 p q)
      = Mlp.row (x0 (ix2 (0 : Fin 1) q)) (fun k => x1 (ix2 k q)) (fun a => x2 (ix2 a (0 : Fin 1))) (fun k a => x3 (ix2 a k))
          (fun a => x4 (ix2 a (0 : Fin 1))) (fun k a => x5 (ix2 a k)) (fun a => x6 (ix2 a (0 : Fin 1)))
          (fun k c => x7 (ix2 c k)) (fun c => x8 (ix2 c (0 : Fin 1))) p := by
  rw [payload_eq, layer3_apply]
  unfold Mlp.row
  refine congrArg (fun h => Mlp.out h _ _ p) (funext fun k => ?_)
  rw [layer2_apply]
  refine congrArg (fun h => Mlp.hid2 h _ _ k) (funext fun j => ?_)
  exact layer1_apply x0 x1 x2 x3 x4 j q

end Cert.KernelIdeal.Payload

end
-- ==== Proof.Blocks.lean ====
/-
  From blocks to the whole array: what the output array of the region holds after every grid point has run.

  The grid has 128 points. Point `t` stages columns `t · 16384 … t · 16384 + 16383` of the identifier row and of the
  grid features, every parameter array whole, and writes back the same columns of the 3 × 2097152 output. So the output
  array ends as ONE function of the arrays the region finds: entry `(p, n)` is output `p` of the perceptron row whose
  identifier is entry `(0, n)` of the identifier row and whose grid features are column `n` of the feature array. Every
  column lies in exactly the block of point `n / 16384`, so the blocks cover the array.
-/
import proofs.«130771_j3255585210920_2_alg».proof.Proof.Gen.KernelIdeal.Frame
import proofs.«130771_j3255585210920_2_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

theorem offset_zero : (![0, 0] : Fin 2 → Nat) = fun _ => 0 := funext fun a => by fin_cases a <;> rfl

/-- The output array as one function of the nine arrays the region stages: a perceptron row per column. -/
def rows (idT : S1x2097152.Idx → EReal) (featT : S4x2097152.Idx → EReal) (wu : S64x1.Idx → EReal) (wg : S64x4.Idx → EReal)
    (b1 : S64x1.Idx → EReal) (w2 : S64x64.Idx → EReal) (b2 : S64x1.Idx → EReal) (w3 : S3x64.Idx → EReal)
    (b3 : S3x1.Idx → EReal) : S3x2097152.Idx → EReal := fun i =>
  Mlp.row (idT (ix2 (0 : Fin 1) (i 1))) (fun k => featT (ix2 k (i 1))) (fun a => wu (ix2 a (0 : Fin 1))) (fun k a => wg (ix2 a k))
    (fun a => b1 (ix2 a (0 : Fin 1))) (fun k a => w2 (ix2 a k)) (fun a => b2 (ix2 a (0 : Fin 1)))
    (fun k p => w3 (ix2 p k)) (fun p => b3 (ix2 p (0 : Fin 1))) (i 0)

/-- The body's stored value at any entry of the block, by the entry's two coordinates. -/
theorem payload_at (x0 : Vec Ideal S1x16384 .bf16) (x1 : Vec Ideal S4x16384 .bf16) (x2 : Vec Ideal S64x1 .f32)
    (x3 : Vec Ideal S64x4 .bf16) (x4 : Vec Ideal S64x1 .f32) (x5 : Vec Ideal S64x64 .bf16) (x6 : Vec Ideal S64x1 .f32)
    (x7 : Vec Ideal S3x64 .bf16) (x8 : Vec Ideal S3x1 .f32) (j : S3x16384.Idx) :
    k0_pay1 (F := Ideal) (k0_pay2 x8) (k0_pay3 x0 x1 x2 x3 x4 x5 x6 x7) j
      = Mlp.row (x0 (ix2 (0 : Fin 1) (j 1))) (fun k => x1 (ix2 k (j 1))) (fun a => x2 (ix2 a (0 : Fin 1))) (fun k a => x3 (ix2 a k))
          (fun a => x4 (ix2 a (0 : Fin 1))) (fun k a => x5 (ix2 a k)) (fun a => x6 (ix2 a (0 : Fin 1)))
          (fun k p => x7 (ix2 p k)) (fun p => x8 (ix2 p (0 : Fin 1))) (j 0) := by
  obtain ⟨p, q, rfl⟩ : ∃ (p : Fin 3) (q : Fin 16384), j = ix2 p q := ⟨j 0, j 1, eq_ix2 j⟩
  exact Payload.payload_apply x0 x1 x2 x3 x4 x5 x6 x7 x8 p q

/-- The printed index maps over the grid: the identifier row, the feature array and the output move along their
    second axis with the point; every parameter block stays at the origin. -/
theorem index_maps : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

/-- What point `t` writes back is the body's stored value on the point's nine blocks, cut to the window. -/
theorem writes_back (t : Fin cfg0.N) :
    (dats m 0 c).flushed 9 t = (cfg0.win 9).cut (grid0.coords t)
      (k0_pay1 (F := Ideal) (k0_pay2 (iblk m c 8 t)) (k0_pay3 (iblk m c 0 t) (iblk m c 1 t) (iblk m c 2 t) (iblk m c 3 t) (iblk m c 4 t) (iblk m c 5 t) (iblk m c 6 t) (iblk m c 7 t))) := by
  show (cfg0.win 9).cut (grid0.coords t) ((dats m 0 c).after 9 t) = _
  rw [after0_9]
  unfold out0_9
  rw [View.canon_unit_zero offset_zero]
  simp only [View.ld_unit_zero (S := S1x16384) offset_zero, View.ld_unit_zero (S := S4x16384) offset_zero,
    View.ld_unit_zero (S := S64x1) offset_zero, View.ld_unit_zero (S := S64x4) offset_zero,
    View.ld_unit_zero (S := S64x64) offset_zero, View.ld_unit_zero (S := S3x64) offset_zero,
    View.ld_unit_zero (S := S3x1) offset_zero]

set_option maxHeartbeats 2000000 in
/-- One entry of the stored value at point `t`: the perceptron row of the column the entry lies in, read off the
    arrays as the region finds them. -/
theorem block_entry (t : Fin cfg0.N) (j : S3x16384.Idx) :
    k0_pay1 (F := Ideal) (k0_pay2 (iblk m c 8 t)) (k0_pay3 (iblk m c 0 t) (iblk m c 1 t) (iblk m c 2 t) (iblk m c 3 t) (iblk m c 4 t) (iblk m c 5 t) (iblk m c 6 t) (iblk m c 7 t)) j
      = rows (V m c main_v102) (V m c main_v103) (V m c main_v105) (V m c main_v107) (V m c main_v112) (V m c main_v109)
        (V m c main_v113) (V m c main_v111) (V m c main_v114) (((cfg0.win 9).blk t).view.emb j) := by
  obtain ⟨a00, a01, a10, a11, a20, a21, a30, a31, a40, a41, a50, a51, a60, a61, a70, a71, a80, a81, a90, a91⟩ := index_maps t
  refine (payload_at (iblk m c 0 t) (iblk m c 1 t) (iblk m c 2 t) (iblk m c 3 t) (iblk m c 4 t) (iblk m c 5 t) (iblk m c 6 t)
    (iblk m c 7 t) (iblk m c 8 t) j).trans ?_
  have hj0 : (j 0).val < 3 := (j 0).isLt
  have hj1 : (j 1).val < 16384 := (j 1).isLt
  refine Mlp.row_congr ?_ (fun k => ?_) (fun a => ?_) (fun k a => ?_) (fun a => ?_) (fun k a => ?_) (fun a => ?_)
    (fun k p => ?_) (fun p => ?_) ?_
  · show V m c main_v102 (((cfg0.win 0).blk t).view.emb (ix2 (0 : Fin 1) (j 1))) = V m c main_v102 _
    refine congrArg (V m c main_v102) (funext fun b => Fin.ext ?_)
    match b with
    | ⟨0, _⟩ => show win0_0.index t (0 : Fin 2) * 1 + 1 * 0 = 0; omega
    | ⟨1, _⟩ => show win0_0.index t (1 : Fin 2) * 16384 + 1 * (j 1).val = win0_9.index t (1 : Fin 2) * 16384 + 1 * (j 1).val; omega
  · show V m c main_v103 (((cfg0.win 1).blk t).view.emb (ix2 k (j 1))) = V m c main_v103 _
    refine congrArg (V m c main_v103) (funext fun b => Fin.ext ?_)
    match b with
    | ⟨0, _⟩ => show win0_1.index t (0 : Fin 2) * 4 + 1 * k.val = k.val; omega
    | ⟨1, _⟩ => show win0_1.index t (1 : Fin 2) * 16384 + 1 * (j 1).val = win0_9.index t (1 : Fin 2) * 16384 + 1 * (j 1).val; omega
  · show V m c main_v105 (((cfg0.win 2).blk t).view.emb (ix2 a (0 : Fin 1))) = V m c main_v105 _
    refine congrArg (V m c main_v105) (funext fun b => Fin.ext ?_)
    match b with
    | ⟨0, _⟩ => show win0_2.index t (0 : Fin 2) * 64 + 1 * a.val = a.val; omega
    | ⟨1, _⟩ => show win0_2.index t (1 : Fin 2) * 1 + 1 * 0 = 0; omega
  · show V m c main_v107 (((cfg0.win 3).blk t).view.emb (ix2 a k)) = V m c main_v107 _
    refine congrArg (V m c main_v107) (funext fun b => Fin.ext ?_)
    match b with
    | ⟨0, _⟩ => show win0_3.index t (0 : Fin 2) * 64 + 1 * a.val = a.val; omega
    | ⟨1, _⟩ => show win0_3.index t (1 : Fin 2) * 4 + 1 * k.val = k.val; omega
  · show V m c main_v112 (((cfg0.win 4).blk t).view.emb (ix2 a (0 : Fin 1))) = V m c main_v112 _
    refine congrArg (V m c main_v112) (funext fun b => Fin.ext ?_)
    match b with
    | ⟨0, _⟩ => show win0_4.index t (0 : Fin 2) * 64 + 1 * a.val = a.val; omega
    | ⟨1, _⟩ => show win0_4.index t (1 : Fin 2) * 1 + 1 * 0 = 0; omega
  · show V m c main_v109 (((cfg0.win 5).blk t).view.emb (ix2 a k)) = V m c main_v109 _
    refine congrArg (V m c main_v109) (funext fun b => Fin.ext ?_)
    match b with
    | ⟨0, _⟩ => show win0_5.index t (0 : Fin 2) * 64 + 1 * a.val = a.val; omega
    | ⟨1, _⟩ => show win0_5.index t (1 : Fin 2) * 64 + 1 * k.val = k.val; omega
  · show V m c main_v113 (((cfg0.win 6).blk t).view.emb (ix2 a (0 : Fin 1))) = V m c main_v113 _
    refine congrArg (V m c main_v113) (funext fun b => Fin.ext ?_)
    match b with
    | ⟨0, _⟩ => show win0_6.index t (0 : Fin 2) * 64 + 1 * a.val = a.val; omega
    | ⟨1, _⟩ => show win0_6.index t (1 : Fin 2) * 1 + 1 * 0 = 0; omega
  · show V m c main_v111 (((cfg0.win 7).blk t).view.emb (ix2 p k)) = V m c main_v111 _
    refine congrArg (V m c main_v111) (funext fun b => Fin.ext ?_)
    match b with
    | ⟨0, _⟩ => show win0_7.index t (0 : Fin 2) * 3 + 1 * p.val = p.val; omega
    | ⟨1, _⟩ => show win0_7.index t (1 : Fin 2) * 64 + 1 * k.val = k.val; omega
  · show V m c main_v114 (((cfg0.win 8).blk t).view.emb (ix2 p (0 : Fin 1))) = V m c main_v114 _
    refine congrArg (V m c main_v114) (funext fun b => Fin.ext ?_)
    match b with
    | ⟨0, _⟩ => show win0_8.index t (0 : Fin 2) * 3 + 1 * p.val = p.val; omega
    | ⟨1, _⟩ => show win0_8.index t (1 : Fin 2) * 1 + 1 * 0 = 0; omega
  · exact Fin.ext (by show (j 0).val = win0_9.index t (0 : Fin 2) * 3 + 1 * (j 0).val; omega)

/-- WHAT POINT `t` WRITES BACK is block `t` of `rows` of the arrays as the region finds them. -/
theorem flushed_eq (t : Fin cfg0.N) :
    (dats m 0 c).flushed 9 t = ((cfg0.win 9).blk t).view.read (Elt Ideal)
      (rows (V m c main_v102) (V m c main_v103) (V m c main_v105) (V m c main_v107) (V m c main_v112) (V m c main_v109)
        (V m c main_v113) (V m c main_v111) (V m c main_v114)) := by
  rw [writes_back]
  have hP : ∀ j : S3x16384.Idx, k0_pay1 (F := Ideal) (k0_pay2 (iblk m c 8 t)) (k0_pay3 (iblk m c 0 t) (iblk m c 1 t) (iblk m c 2 t) (iblk m c 3 t) (iblk m c 4 t) (iblk m c 5 t) (iblk m c 6 t) (iblk m c 7 t)) j
      = rows (V m c main_v102) (V m c main_v103) (V m c main_v105) (V m c main_v107) (V m c main_v112) (V m c main_v109)
        (V m c main_v113) (V m c main_v111) (V m c main_v114) (((cfg0.win 9).blk t).view.emb j) := block_entry m c t
  generalize k0_pay1 (F := Ideal) (k0_pay2 (iblk m c 8 t)) (k0_pay3 (iblk m c 0 t) (iblk m c 1 t) (iblk m c 2 t) (iblk m c 3 t) (iblk m c 4 t) (iblk m c 5 t) (iblk m c 6 t) (iblk m c 7 t)) = P at hP ⊢
  funext j
  exact hP j

/-- An index of the output array is in point `t`'s block iff each coordinate is in the block's range on its axis. -/
theorem mem_block (t : Fin cfg0.N) (i : S3x2097152.Idx) :
    i ∈ ((cfg0.win 9).blk t).view.set ↔ ∀ a : Fin 2,
      win0_9.index t a * S3x16384.size a ≤ (i a).val ∧ (i a).val < win0_9.index t a * S3x16384.size a + S3x16384.size a := by
  show i ∈ ((View.whole main_v115).slice (win0_9.rect t)).set ↔ _
  rw [View.set_slice_whole, Rect.mem_set_unit]
  exact Iff.rfl

/-- Every index of the output array lies in some point's block: column `n` in that of point `n / 16384`. -/
theorem covered (i : S3x2097152.Idx) :
    ∃ t : Fin cfg0.N, (cfg0.win 9).flush t = true ∧ i ∈ ((cfg0.win 9).blk t).view.set := by
  have hi0 : (i 0).val < 3 := (i 0).isLt
  have hi1 : (i 1).val < 2097152 := (i 1).isLt
  have hN : cfg0.N = 128 := N_0
  let t : Fin cfg0.N := ⟨(i 1).val / 16384, by rw [hN]; omega⟩
  obtain ⟨-, -, -, -, -, -, -, -, -, -, -, -, -, -, -, -, -, -, a90, a91⟩ := index_maps t
  have ht : t.val = (i 1).val / 16384 := rfl
  refine ⟨t, flush0_9 t, ?_⟩
  rw [mem_block]
  intro a
  match a with
  | ⟨0, _⟩ => show win0_9.index t (0 : Fin 2) * 3 ≤ (i 0).val ∧ (i 0).val < win0_9.index t (0 : Fin 2) * 3 + 3; omega
  | ⟨1, _⟩ =>
    show win0_9.index t (1 : Fin 2) * 16384 ≤ (i 1).val ∧ (i 1).val < win0_9.index t (1 : Fin 2) * 16384 + 16384
    omega

/-- THE ARRAY after the run: `rows` of the arrays the region finds. -/
theorem final : (dats m 0 c).arrAt 9 cfg0.N
    = rows (V m c main_v102) (V m c main_v103) (V m c main_v105) (V m c main_v107) (V m c main_v112) (V m c main_v109)
        (V m c main_v113) (V m c main_v111) (V m c main_v114) :=
  (dats m 0 c).arrAt_eq_of_cover 9 _ (fun t _ => flushed_eq m c t) (covered)

end Cert.KernelIdeal.Blocks

end
-- ==== Proof.HostWeights.lean ====
/-
  What the parameter windows and the identifier window hold when the region is entered.

  Before the region the host transposes and slices the parameter arrays: the 5 × 64 first-layer matrix is transposed to
  64 × 5 and cut into its first column (the identifier's weights) and its other four (the grid features' weights); the
  second and third matrices are transposed; each bias vector becomes a column; the identifier column of the input is
  cut out and transposed into a row. Changes of float format are kept as written: on the extended reals they are the
  identity.
-/
import proofs.«130771_j3255585210920_2_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-- Unfolds the contents of a buffer at the region's entry into the host operations before the region, applied one
    after the other to the launch contents. -/
local macro "host_eval" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results_simp))

/-- Window 0: the input's first column, as a 1 × 2097152 row. -/
theorem idRow_eq : V m c main_v102 = transpose S1x2097152 [1, 0] (truncf .bf16
    (extractStridedSlice S2097152x1 ![0, 0] (m ((c : Thread nD τ).loc main_arg0)) slices_S2097152x3_S2097152x1_0_0)
    bitsLt_bf16_f32) transposes_S2097152x1_S1x2097152_1_0 := by
  host_eval <;> rfl

/-- Window 2: the first column of the transposed first-layer matrix. -/
theorem wId_eq : V m c main_v105 = extractStridedSlice S64x1 ![0, 0]
    (transpose S64x5 [1, 0] (m ((c : Thread nD τ).loc main_arg2)) transposes_S5x64_S64x5_1_0) slices_S64x5_S64x1_0_0 := by
  host_eval <;> rfl

/-- Window 3: the other four columns of the transposed first-layer matrix. -/
theorem wGrid_eq : V m c main_v107 = truncf .bf16 (extractStridedSlice S64x4 ![0, 1]
    (transpose S64x5 [1, 0] (m ((c : Thread nD τ).loc main_arg2)) transposes_S5x64_S64x5_1_0) slices_S64x5_S64x4_0_1)
    bitsLt_bf16_f32 := by
  host_eval <;> rfl

/-- Window 4: the first bias as a column. -/
theorem b1Col_eq : V m c main_v112 = shapeCast S64x1 (m ((c : Thread nD τ).loc main_arg3)) shapeCasts_S64_S64x1 := by
  host_eval <;> rfl

/-- Window 5: the second-layer matrix, transposed. -/
theorem w2T_eq : V m c main_v109 = truncf .bf16
    (transpose S64x64 [1, 0] (m ((c : Thread nD τ).loc main_arg4)) transposes_S64x64_S64x64_1_0) bitsLt_bf16_f32 := by
  host_eval <;> rfl

/-- Window 6: the second bias as a column. -/
theorem b2Col_eq : V m c main_v113 = shapeCast S64x1 (m ((c : Thread nD τ).loc main_arg5)) shapeCasts_S64_S64x1 := by
  host_eval <;> rfl

/-- Window 7: the third-layer matrix, transposed. -/
theorem w3T_eq : V m c main_v111 = truncf .bf16
    (transpose S3x64 [1, 0] (m ((c : Thread nD τ).loc main_arg6)) transposes_S64x3_S3x64_1_0) bitsLt_bf16_f32 := by
  host_eval <;> rfl

/-- Window 8: the third bias as a column. -/
theorem b3Col_eq : V m c main_v114 = shapeCast S3x1 (m ((c : Thread nD τ).loc main_arg7)) shapeCasts_S3_S3x1 := by
  host_eval <;> rfl

end Cert.KernelIdeal.HostSide

end
-- ==== Proof.HostFeat.lean ====
/-
  What the grid-feature window holds when the region is entered: the interpolated grid features (the 2097152 × 4 array
  the host computes from the input's last two columns and the embedding table), transposed to 4 × 2097152. The
  features themselves are left as the contents of their buffer: both programs compute them by the same host
  operations, and nothing here depends on what they are.
-/
import proofs.«130771_j3255585210920_2_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-- Unfolds the contents of a buffer at the region's entry into the host operations before the region, applied one
    after the other to the launch contents. -/
local macro "host_eval" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results_simp))

set_option maxHeartbeats 16000000 in
/-- Window 1: the interpolated grid features, transposed. -/
theorem featT_eq : V m c main_v103 = transpose S4x2097152 [1, 0] (truncf .bf16 (V m c main_v99) bitsLt_bf16_f32)
    transposes_S2097152x4_S4x2097152_1_0 := by
  host_eval <;> rfl

end Cert.KernelIdeal.HostSide

end
-- ==== Proof.Net.lean ====
/-
  The whole network as one function of its arrays: entry `(n, p)` of the 2097152 × 3 result is output `p` of the
  perceptron row `n`, whose identifier is entry `(n, 0)` of the input and whose grid features are row `n` of the
  interpolated 2097152 × 4 feature array. The first row of the 5 × 64 first-layer matrix weighs the identifier, its
  other four rows the grid features.
-/
import proofs.«130771_j3255585210920_2_alg».proof.Proof.Mlp
import Idealize.ShloMosaic.Lib.ValueIdx

noncomputable section

namespace Cert.Net

open Idealize.ShloMosaic Idealize.ShloMosaic.ValueIdx

/-- The result array from the input `x`, the interpolated features `feat` and the six parameter arrays. -/
def net (x : (⟨2, ![2097152, 3]⟩ : Shape).Idx → EReal) (feat : (⟨2, ![2097152, 4]⟩ : Shape).Idx → EReal)
    (w1 : (⟨2, ![5, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 3]⟩ : Shape).Idx → EReal) (b3 : (⟨1, ![3]⟩ : Shape).Idx → EReal) :
    (⟨2, ![2097152, 3]⟩ : Shape).Idx → EReal := fun i =>
  Mlp.row (x (ix2 (i 0) (0 : Fin 3))) (fun k => feat (ix2 (i 0) k)) (fun a => w1 (ix2 (0 : Fin 5) a))
    (fun k a => w1 (ix2 k.succ a)) (fun a => b1 (ix1 a)) (fun k a => w2 (ix2 k a)) (fun a => b2 (ix1 a))
    (fun k p => w3 (ix2 k p)) (fun p => b3 (ix1 p)) (i 1)

end Cert.Net

end
-- ==== Proof.KernelValue.lean ====
/-
  The kernel program's result is the network.

  The region leaves a 3 × 2097152 array, one perceptron row per column, computed from the arrays the host prepared; the
  host then transposes it. Read back through that preparation — the identifier column cut out and transposed, the
  features transposed, the first-layer matrix transposed and cut into its first column and its other four, the other
  matrices transposed, the biases laid as columns — entry `(n, p)` of the transposed result is output `p` of row `n`
  of the network on the program's own arguments and its interpolated features.
-/
import proofs.«130771_j3255585210920_2_alg».proof.Proof.Blocks
import proofs.«130771_j3255585210920_2_alg».proof.Proof.HostWeights
import proofs.«130771_j3255585210920_2_alg».proof.Proof.HostFeat
import proofs.«130771_j3255585210920_2_alg».proof.Proof.Net
import proofs.«130771_j3255585210920_2_alg».proof.Proof.LibKeepdims
import Idealize.ShloMosaic.Lib.ValueLayout

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The identifier row at column `n` is the input's entry `(n, 0)`. -/
theorem idRow_apply (n : Fin 2097152) :
    V m c main_v102 (ix2 (0 : Fin 1) n) = m ((c : Thread nD τ).loc main_arg0) (ix2 n (0 : Fin 3)) := by
  rw [HostSide.idRow_eq]
  refine (transpose_ix2_apply _ _ (0 : Fin 1) n).trans ?_
  show extractStridedSlice S2097152x1 ![0, 0] (m ((c : Thread nD τ).loc main_arg0)) slices_S2097152x3_S2097152x1_0_0
    (ix2 n (0 : Fin 1)) = _
  exact slice2_axis1_apply 0 _ _ n (0 : Fin 1) (0 : Fin 3) rfl

/-- The feature array at `(k, n)` is the interpolated features' entry `(n, k)`. -/
theorem featT_apply (k : Fin 4) (n : Fin 2097152) :
    V m c main_v103 (ix2 k n) = V m c main_v99 (ix2 n k) := by
  rw [HostSide.featT_eq]
  exact transpose_ix2_apply _ _ k n

/-- The identifier's weight column at `(a, 0)` is entry `(0, a)` of the first-layer matrix. -/
theorem wId_apply (a : Fin 64) :
    V m c main_v105 (ix2 a (0 : Fin 1)) = m ((c : Thread nD τ).loc main_arg2) (ix2 (0 : Fin 5) a) := by
  rw [HostSide.wId_eq]
  refine (slice2_axis1_apply 0 _ _ a (0 : Fin 1) (0 : Fin 5) rfl).trans ?_
  exact transpose_ix2_apply _ _ a (0 : Fin 5)

/-- The grid features' weights at `(a, k)` are entry `(k + 1, a)` of the first-layer matrix. -/
theorem wGrid_apply (a : Fin 64) (k : Fin 4) :
    V m c main_v107 (ix2 a k) = m ((c : Thread nD τ).loc main_arg2) (ix2 k.succ a) := by
  rw [HostSide.wGrid_eq]
  show extractStridedSlice S64x4 ![0, 1] (transpose S64x5 [1, 0] (m ((c : Thread nD τ).loc main_arg2)) transposes_S5x64_S64x5_1_0)
    slices_S64x5_S64x4_0_1 (ix2 a k) = _
  refine (slice2_axis1_apply 1 _ _ a k k.succ (by rw [Fin.val_succ]; omega)).trans ?_
  exact transpose_ix2_apply _ _ a k.succ

theorem b1Col_apply (a : Fin 64) :
    V m c main_v112 (ix2 a (0 : Fin 1)) = m ((c : Thread nD τ).loc main_arg3) (ix1 a) := by
  rw [HostSide.b1Col_eq]
  exact Cert.Lib.Keepdims.shapeCast_a_a1_apply _ _ a (0 : Fin 1)

theorem w2T_apply (a k : Fin 64) :
    V m c main_v109 (ix2 a k) = m ((c : Thread nD τ).loc main_arg4) (ix2 k a) := by
  rw [HostSide.w2T_eq]
  exact transpose_ix2_apply _ _ a k

theorem b2Col_apply (a : Fin 64) :
    V m c main_v113 (ix2 a (0 : Fin 1)) = m ((c : Thread nD τ).loc main_arg5) (ix1 a) := by
  rw [HostSide.b2Col_eq]
  exact Cert.Lib.Keepdims.shapeCast_a_a1_apply _ _ a (0 : Fin 1)

theorem w3T_apply (p : Fin 3) (k : Fin 64) :
    V m c main_v111 (ix2 p k) = m ((c : Thread nD τ).loc main_arg6) (ix2 k p) := by
  rw [HostSide.w3T_eq]
  exact transpose_ix2_apply _ _ p k

theorem b3Col_apply (p : Fin 3) :
    V m c main_v114 (ix2 p (0 : Fin 1)) = m ((c : Thread nD τ).loc main_arg7) (ix1 p) := by
  rw [HostSide.b3Col_eq]
  exact Cert.Lib.Keepdims.shapeCast_a_a1_apply _ _ p (0 : Fin 1)

/-- The region's output array, transposed, is the network on the program's arguments and its interpolated features. -/
theorem result_eq :
    transpose S2097152x3 [1, 0]
        (Blocks.rows (V m c main_v102) (V m c main_v103) (V m c main_v105) (V m c main_v107) (V m c main_v112)
          (V m c main_v109) (V m c main_v113) (V m c main_v111) (V m c main_v114))
        transposes_S3x2097152_S2097152x3_1_0
      = Net.net (m ((c : Thread nD τ).loc main_arg0)) (V m c main_v99) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨n, p, rfl⟩ : ∃ (n : Fin 2097152) (p : Fin 3), i = ix2 n p := ⟨i 0, i 1, eq_ix2 i⟩
  refine (transpose_ix2_apply _ _ n p).trans ?_
  exact Mlp.row_congr (idRow_apply m c n) (fun k => featT_apply m c k n) (fun a => wId_apply m c a)
    (fun k a => wGrid_apply m c a k) (fun a => b1Col_apply m c a) (fun k a => w2T_apply m c a k) (fun a => b2Col_apply m c a)
    (fun k p => w3T_apply m c p k) (fun p => b3Col_apply m c p) rfl

end Cert.KernelIdeal.Value

end
-- ==== Proof.KernelRun.lean ====
/-
  The kernel program's run, with its result named.

  Every weakly fair execution of the idealized kernel program terminates; its result buffer then holds the region's
  output array transposed by the one host operation after the region, which is the network on the program's arguments
  and its interpolated features; and the arguments are unchanged.
-/
import proofs.«130771_j3255585210920_2_alg».proof.Proof.KernelValue

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- What the result buffer holds after the host operation that follows the region: the transposed output array. -/
theorem tail_value (c : Dev nD) :
    Pipeline.afterTail₀ cfgs (dats m) 0 (V0 m) [hostOps1] c main_v116
      = Net.net (m ((c : Thread nD τ).loc main_arg0)) (V m c main_v99) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v116) = _
  after_results
  refine Eq.trans ?_ (result_eq m c)
  exact congrArg (fun A => transpose S2097152x3 [1, 0] A transposes_S3x2097152_S2097152x3_1_0)
    ((Pipeline.withArrays_arr spec0 launch0.win.arr_inj c _ _ 9).trans (Blocks.final m c))

/-- The run: the result buffer at the network, the arguments unchanged. -/
theorem run : θ_run defs (onTc (τ := τ) (main (F := Ideal))) ⟨m, fun _ => 0, ρ⟩ fun r => ∀ c : Dev nD,
      r.2.mem ((c.tc : Thread nD τ).loc main_v116)
        = Net.net (m ((c : Thread nD τ).loc main_arg0)) (V m c main_v99) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).2 main_v116 (Pipeline.mem_restRefs_of main_v116 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Value

end
-- ==== Proof.RefRun.lean ====
/-
  The reference program's run, read back as a composition of its host operations.

  The reference is a straight line of 162 host operations with no kernel launch: it cuts the identifier column and the
  two coordinate columns out of the input, computes the four cell corners and the two interpolation weights, gathers the
  four corner rows of the embedding table and interpolates them, joins the identifier to the four interpolated features,
  and applies the three layers and the logistic function. Every weakly fair execution of such a line terminates, and
  each buffer then holds what the operations, applied one after the other to the launch contents, leave in it. That
  composition is left unevaluated here; the modules that need a buffer's value open only as much of it as they use.
-/
import proofs.«130771_j3255585210920_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's host operations in program order, 162 of them; where the program calls an outlined function
    (the three selections of the cell indices, the two clamps at zero) the function's own operations stand in the call's place. -/
abbrev ops : List (HloOp τ sig (Elt F)) :=
  [ unary main_arg0 main_v0 ((extractStridedSlice S2097152x1 ![0, 0] · slices_S2097152x3_S2097152x1_0_0) : (⟨S2097152x3, .f32⟩ : BufTy).Contents (Elt F) → (⟨S2097152x1, .f32⟩ : BufTy).Contents (Elt F)),
    unary main_arg0 main_v1 ((extractStridedSlice S2097152x2 ![0, 1] · slices_S2097152x3_S2097152x2_0_1) : (⟨S2097152x3, .f32⟩ : BufTy).Contents (Elt F) → (⟨S2097152x2, .f32⟩ : BufTy).Contents (Elt F)),
    unary main_v1 main_v2 ((extractStridedSlice S2097152x1 ![0, 0] · slices_S2097152x2_S2097152x1_0_0) : (⟨S2097152x2, .f32⟩ : BufTy).Contents (Elt F) → (⟨S2097152x1, .f32⟩ : BufTy).Contents (Elt F)),
    reshape main_v2 main_v3 rfl shapeCasts_S2097152x1_S2097152,
    unary main_v1 main_v4 ((extractStridedSlice S2097152x1 ![0, 1] · slices_S2097152x2_S2097152x1_0_1) : (⟨S2097152x2, .f32⟩ : BufTy).Contents (Elt F) → (⟨S2097152x1, .f32⟩ : BufTy).Contents (Elt F)),
    reshape main_v4 main_v5 rfl shapeCasts_S2097152x1_S2097152,
    nullary main_cst (constant S_ .f32 0x44800000#32),
    unary main_cst main_v6 (broadcastInDim S2097152 ![] bcast_S_S2097152 : (⟨S_, .f32⟩ : BufTy).Contents (Elt F) → (⟨S2097152, .f32⟩ : BufTy).Contents (Elt F)),
    binary main_v3 main_v6 main_v7 (mulf : (⟨S2097152, .f32⟩ : BufTy).Contents (Elt F) → (⟨S2097152, .f32⟩ : BufTy).Contents (Elt F) → (⟨S2097152, .f32⟩ : BufTy).Contents (Elt F)),
    unary main_v7 main_v8 (fptosi 32 : (⟨S2097152, .f32⟩ : BufTy).Contents (Elt F) → (⟨S2097152, .i32⟩ : BufTy).Contents (Elt F)),
    nullary main_c (constantI S_ 32 1024#32),
    unary main_c main_v9 (broadcastInDim S2097152 ![] bcast_S_S2097152 : (⟨S_, .i32⟩ : BufTy).Contents (Elt F) → (⟨S2097152, .i32⟩ : BufTy).Contents (Elt F)),
    binary main_v8 main_v9 main_v10 (cmpi .eq : (⟨S2097152, .i32⟩ : BufTy).Contents (Elt F) → (⟨S2097152, .i32⟩ : BufTy).Contents (Elt F) → (⟨S2097152, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S2097152, .i32⟩) main_call0_v1) (broadcastInDim S2097152 ![] bcast_S_S2097152),
    TRef.ternary (TRef.of (T := ⟨S2097152, .i1⟩) main_v10) (TRef.of (T := ⟨S2097152, .i32⟩) main_call0_v1) (TRef.of (T := ⟨S2097152, .i32⟩) main_v8) (TRef.of (T := ⟨S2097152, .i32⟩) main_v11) select,
    nullary main_c_1 (constantI S_ 32 1#32),
    unary main_c_1 main_v12 (broadcastInDim S2097152 ![] bcast_S_S2097152 : (⟨S_, .i32⟩ : BufTy).Contents (Elt F) → (⟨S2097152, .i32⟩ : BufTy).Contents (Elt F)),
    binary main_v11 main_v12 main_v13 (addi : (⟨S2097152, .i32⟩ : BufTy).Contents (Elt F) → (⟨S2097152, .i32⟩ : BufTy).Contents (Elt F) → (⟨S2097152, .i32⟩ : BufTy).Contents (Elt F)),
    nullary main_c_2 (constantI S_ 32 1024#32),
    unary main_c_2 main_v14 (broadcastInDim S2097152 ![] bcast_S_S2097152 : (⟨S_, .i32⟩ : BufTy).Contents (Elt F) → (⟨S2097152, .i32⟩ : BufTy).Contents (Elt F)),
    binary main_v13 main_v14 main_v15 (cmpi .eq : (⟨S2097152, .i32⟩ : BufTy).Contents (Elt F) → (⟨S2097152, .i32⟩ : BufTy).Contents (Elt F) → (⟨S2097152, .i1⟩ : BufTy).Contents (Elt F)),
    nullary main_c_3 (constantI S_ 32 1#32),
    unary main_c_3 main_v16 (broadcastInDim S2097152 ![] bcast_S_S2097152 : (⟨S_, .i32⟩ : BufTy).Contents (Elt F) → (⟨S2097152, .i32⟩ : BufTy).Contents (Elt F)),
    binary main_v11 main_v16 main_v17 (addi : (⟨S2097152, .i32⟩ : BufTy).Contents (Elt F) → (⟨S2097152, .i32⟩ : BufTy).Contents (Elt F) → (⟨S2097152, .i32⟩ : BufTy).Contents (Elt F)),
    nullary main_c_4 (constantI S_ 32 1023#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.ternary (TRef.of (T := ⟨S2097152, .i1⟩) main_v15) (TRef.of (T := ⟨S2097152, .i32⟩) main_call1_v1) (TRef.of (T := ⟨S2097152, .i32⟩) main_v17) (TRef.of (T := ⟨S2097152, .i32⟩) main_v18) select,
    nullary main_cst_5 (constant S_ .f32 0x44800000#32),
    unary main_cst_5 main_v19 (broadcastInDim S2097152 ![] bcast_S_S2097152 : (⟨S_, .f32⟩ : BufTy).Contents (Elt F) → (⟨S2097152, .f32⟩ : BufTy).Contents (Elt F)),
    binary main_v5 main_v19 main_v20 (mulf : (⟨S2097152, .f32⟩ : BufTy).Contents (Elt F) → (⟨S2097152, .f32⟩ : BufTy).Contents (Elt F) → (⟨S2097152, .f32⟩ : BufTy).Contents (Elt F)),
    unary main_v20 main_v21 (fptosi 32 : (⟨S2097152, .f32⟩ : BufTy).Contents (Elt F) → (⟨S2097152, .i32⟩ : BufTy).Contents (Elt F)),
    nullary main_c_6 (constantI S_ 32 1#32),
    unary main_c_6 main_v22 (broadcastInDim S2097152 ![] bcast_S_S2097152 : (⟨S_, .i32⟩ : BufTy).Contents (Elt F) → (⟨S2097152, .i32⟩ : BufTy).Contents (Elt F)),
    binary main_v21 main_v22 main_v23 (addi : (⟨S2097152, .i32⟩ : BufTy).Contents (Elt F) → (⟨S2097152, .i32⟩ : BufTy).Contents (Elt F) → (⟨S2097152, .i32⟩ : BufTy).Contents (Elt F)),
    nullary main_c_7 (constantI S_ 32 1024#32),
    unary main_c_7 main_v24 (broadcastInDim S2097152 ![] bcast_S_S2097152 : (⟨S_, .i32⟩ : BufTy).Contents (Elt F) → (⟨S2097152, .i32⟩ : BufTy).Contents (Elt F)),
    binary main_v23 main_v24 main_v25 (cmpi .eq : (⟨S2097152, .i32⟩ : BufTy).Contents (Elt F) → (⟨S2097152, .i32⟩ : BufTy).Contents (Elt F) → (⟨S2097152, .i1⟩ : BufTy).Contents (Elt F)),
    nullary main_c_8 (constantI S_ 32 1#32),
    unary main_c_8 main_v26 (broadcastInDim S2097152 ![] bcast_S_S2097152 : (⟨S_, .i32⟩ : BufTy).Contents (Elt F) → (⟨S2097152, .i32⟩ : BufTy).Contents (Elt F)),
    binary main_v21 main_v26 main_v27 (addi : (⟨S2097152, .i32⟩ : BufTy).Contents (Elt F) → (⟨S2097152, .i32⟩ : BufTy).Contents (Elt F) → (⟨S2097152, .i32⟩ : BufTy).Contents (Elt F)),
    nullary main_c_9 (constantI S_ 32 1023#32),
    TRef.unary (TRef.of (T := ⟨S_, .i32⟩) main_c_9) (TRef.of (T := ⟨S_, .i32⟩) main_call2_v0) id,
    TRef.unary (TRef.of (T := ⟨S_, .i32⟩) main_call2_v0) (TRef.of (T := ⟨S2097152, .i32⟩) main_call2_v1) (broadcastInDim S2097152 ![] bcast_S_S2097152),
    TRef.ternary (TRef.of (T := ⟨S2097152, .i1⟩) main_v25) (TRef.of (T := ⟨S2097152, .i32⟩) main_call2_v1) (TRef.of (T := ⟨S2097152, .i32⟩) main_v27) (TRef.of (T := ⟨S2097152, .i32⟩) main_v28) select,
    nullary main_cst_10 (constant S_ .f32 0x44800000#32),
    unary main_cst_10 main_v29 (broadcastInDim S2097152 ![] bcast_S_S2097152 : (⟨S_, .f32⟩ : BufTy).Contents (Elt F) → (⟨S2097152, .f32⟩ : BufTy).Contents (Elt F)),
    binary main_v3 main_v29 main_v30 (mulf : (⟨S2097152, .f32⟩ : BufTy).Contents (Elt F) → (⟨S2097152, .f32⟩ : BufTy).Contents (Elt F) → (⟨S2097152, .f32⟩ : BufTy).Contents (Elt F)),
    unary main_v11 main_v31 (sitofp .f32 : (⟨S2097152, .i32⟩ : BufTy).Contents (Elt F) → (⟨S2097152, .f32⟩ : BufTy).Contents (Elt F)),
    binary main_v30 main_v31 main_v32 (subf : (⟨S2097152, .f32⟩ : BufTy).Contents (Elt F) → (⟨S2097152, .f32⟩ : BufTy).Contents (Elt F) → (⟨S2097152, .f32⟩ : BufTy).Contents (Elt F)),
    unary main_v32 main_v33 (broadcastInDim S2097152x1 ![0] bcast_S2097152_S2097152x1_0 : (⟨S2097152, .f32⟩ : BufTy).Contents (Elt F) → (⟨S2097152x1, .f32⟩ : BufTy).Contents (Elt F)),
    nullary main_cst_11 (constant S_ .f32 0x44800000#32),
    unary main_cst_11 main_v34 (broadcastInDim S2097152 ![] bcast_S_S2097152 : (⟨S_, .f32⟩ : BufTy).Contents (Elt F) → (⟨S2097152, .f32⟩ : BufTy).Contents (Elt F)),
    binary main_v5 main_v34 main_v35 (mulf : (⟨S2097152, .f32⟩ : BufTy).Contents (Elt F) → (⟨S2097152, .f32⟩ : BufTy).Contents (Elt F) → (⟨S2097152, .f32⟩ : BufTy).Contents (Elt F)),
    unary main_v21 main_v36 (sitofp .f32 : (⟨S2097152, .i32⟩ : BufTy).Contents (Elt F) → (⟨S2097152, .f32⟩ : BufTy).Contents (Elt F)),
    binary main_v35 main_v36 main_v37 (subf : (⟨S2097152, .f32⟩ : BufTy).Contents (Elt F) → (⟨S2097152, .f32⟩ : BufTy).Contents (Elt F) → (⟨S2097152, .f32⟩ : BufTy).Contents (Elt F)),
    unary main_v37 main_v38 (broadcastInDim S2097152x1 ![0] bcast_S2097152_S2097152x1_0 : (⟨S2097152, .f32⟩ : BufTy).Contents (Elt F) → (⟨S2097152x1, .f32⟩ : BufTy).Contents (Elt F)),
    nullary main_c_12 (constantI S_ 32 1024#32),
    unary main_c_12 main_v39 (broadcastInDim S2097152 ![] bcast_S_S2097152 : (⟨S_, .i32⟩ : BufTy).Contents (Elt F) → (⟨S2097152, .i32⟩ : BufTy).Contents (Elt F)),
    binary main_v21 main_v39 main_v40 (muli : (⟨S2097152, .i32⟩ : BufTy).Contents (Elt F) → (⟨S2097152, .i32⟩ : BufTy).Contents (Elt F) → (⟨S2097152, .i32⟩ : BufTy).Contents (Elt F)),
    binary main_v40 main_v11 main_v41 (addi : (⟨S2097152, .i32⟩ : BufTy).Contents (Elt F) → (⟨S2097152, .i32⟩ : BufTy).Contents (Elt F) → (⟨S2097152, .i32⟩ : BufTy).Contents (Elt F)),
    nullary main_c_13 (constantI S_ 32 0#32),
    unary main_c_13 main_v42 (broadcastInDim S2097152 ![] bcast_S_S2097152 : (⟨S_, .i32⟩ : BufTy).Contents (Elt F) → (⟨S2097152, .i32⟩ : BufTy).Contents (Elt F)),
    binary main_v41 main_v42 main_v43 (cmpi .slt : (⟨S2097152, .i32⟩ : BufTy).Contents (Elt F) → (⟨S2097152, .i32⟩ : BufTy).Contents (Elt F) → (⟨S2097152, .i1⟩ : BufTy).Contents (Elt F)),
    nullary main_c_14 (constantI S_ 32 1048576#32),
    unary main_c_14 main_v44 (broadcastInDim S2097152 ![] bcast_S_S2097152 : (⟨S_, .i32⟩ : BufTy).Contents (Elt F) → (⟨S2097152, .i32⟩ : BufTy).Contents (Elt F)),
    binary main_v41 main_v44 main_v45 (addi : (⟨S2097152, .i32⟩ : BufTy).Contents (Elt F) → (⟨S2097152, .i32⟩ : BufTy).Contents (Elt F) → (⟨S2097152, .i32⟩ : BufTy).Contents (Elt F)),
    ternary main_v43 main_v45 main_v41 main_v46 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v46 main_v47 (broadcastInDim S2097152x1 ![0] bcast_S2097152_S2097152x1_0 : (⟨S2097152, .i32⟩ : BufTy).Contents (Elt F) → (⟨S2097152x1, .i32⟩ : BufTy).Contents (Elt F)),
    binary main_arg1 main_v47 main_v48 ((fun x i => Host.gather gather_S1048576x4_S2097152x1_S2097152x4_1_0_n_n_0_1_14 x i) : (⟨S1048576x4, .f32⟩ : BufTy).Contents (Elt F) → (⟨S2097152x1, .i32⟩ : BufTy).Contents (Elt F) → (⟨S2097152x4, .f32⟩ : BufTy).Contents (Elt F)),
    nullary main_c_15 (constantI S_ 32 1024#32),
    unary main_c_15 main_v49 (broadcastInDim S2097152 ![] bcast_S_S2097152 : (⟨S_, .i32⟩ : BufTy).Contents (Elt F) → (⟨S2097152, .i32⟩ : BufTy).Contents (Elt F)),
    binary main_v21 main_v49 main_v50 (muli : (⟨S2097152, .i32⟩ : BufTy).Contents (Elt F) → (⟨S2097152, .i32⟩ : BufTy).Contents (Elt F) → (⟨S2097152, .i32⟩ : BufTy).Contents (Elt F)),
    binary main_v50 main_v18 main_v51 (addi : (⟨S2097152, .i32⟩ : BufTy).Contents (Elt F) → (⟨S2097152, .i32⟩ : BufTy).Contents (Elt F) → (⟨S2097152, .i32⟩ : BufTy).Contents (Elt F)),
    nullary main_c_16 (constantI S_ 32 0#32),
    unary main_c_16 main_v52 (broadcastInDim S2097152 ![] bcast_S_S2097152 : (⟨S_, .i32⟩ : BufTy).Contents (Elt F) → (⟨S2097152, .i32⟩ : BufTy).Contents (Elt F)),
    binary main_v51 main_v52 main_v53 (cmpi .slt : (⟨S2097152, .i32⟩ : BufTy).Contents (Elt F) → (⟨S2097152, .i32⟩ : BufTy).Contents (Elt F) → (⟨S2097152, .i1⟩ : BufTy).Contents (Elt F)),
    nullary main_c_17 (constantI S_ 32 1048576#32),
    unary main_c_17 main_v54 (broadcastInDim S2097152 ![] bcast_S_S2097152 : (⟨S_, .i32⟩ : BufTy).Contents (Elt F) → (⟨S2097152, .i32⟩ : BufTy).Contents (Elt F)),
    binary main_v51 main_v54 main_v55 (addi : (⟨S2097152, .i32⟩ : BufTy).Contents (Elt F) → (⟨S2097152, .i32⟩ : BufTy).Contents (Elt F) → (⟨S2097152, .i32⟩ : BufTy).Contents (Elt F)),
    ternary main_v53 main_v55 main_v51 main_v56 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v56 main_v57 (broadcastInDim S2097152x1 ![0] bcast_S2097152_S2097152x1_0 : (⟨S2097152, .i32⟩ : BufTy).Contents (Elt F) → (⟨S2097152x1, .i32⟩ : BufTy).Contents (Elt F)),
    binary main_arg1 main_v57 main_v58 ((fun x i => Host.gather gather_S1048576x4_S2097152x1_S2097152x4_1_0_n_n_0_1_14 x i) : (⟨S1048576x4, .f32⟩ : BufTy).Contents (Elt F) → (⟨S2097152x1, .i32⟩ : BufTy).Contents (Elt F) → (⟨S2097152x4, .f32⟩ : BufTy).Contents (Elt F)),
    nullary main_c_18 (constantI S_ 32 1024#32),
    unary main_c_18 main_v59 (broadcastInDim S2097152 ![] bcast_S_S2097152 : (⟨S_, .i32⟩ : BufTy).Contents (Elt F) → (⟨S2097152, .i32⟩ : BufTy).Contents (Elt F)),
    binary main_v28 main_v59 main_v60 (muli : (⟨S2097152, .i32⟩ : BufTy).Contents (Elt F) → (⟨S2097152, .i32⟩ : BufTy).Contents (Elt F) → (⟨S2097152, .i32⟩ : BufTy).Contents (Elt F)),
    binary main_v60 main_v11 main_v61 (addi : (⟨S2097152, .i32⟩ : BufTy).Contents (Elt F) → (⟨S2097152, .i32⟩ : BufTy).Contents (Elt F) → (⟨S2097152, .i32⟩ : BufTy).Contents (Elt F)),
    nullary main_c_19 (constantI S_ 32 0#32),
    unary main_c_19 main_v62 (broadcastInDim S2097152 ![] bcast_S_S2097152 : (⟨S_, .i32⟩ : BufTy).Contents (Elt F) → (⟨S2097152, .i32⟩ : BufTy).Contents (Elt F)),
    binary main_v61 main_v62 main_v63 (cmpi .slt : (⟨S2097152, .i32⟩ : BufTy).Contents (Elt F) → (⟨S2097152, .i32⟩ : BufTy).Contents (Elt F) → (⟨S2097152, .i1⟩ : BufTy).Contents (Elt F)),
    nullary main_c_20 (constantI S_ 32 1048576#32),
    unary main_c_20 main_v64 (broadcastInDim S2097152 ![] bcast_S_S2097152 : (⟨S_, .i32⟩ : BufTy).Contents (Elt F) → (⟨S2097152, .i32⟩ : BufTy).Contents (Elt F)),
    binary main_v61 main_v64 main_v65 (addi : (⟨S2097152, .i32⟩ : BufTy).Contents (Elt F) → (⟨S2097152, .i32⟩ : BufTy).Contents (Elt F) → (⟨S2097152, .i32⟩ : BufTy).Contents (Elt F)),
    ternary main_v63 main_v65 main_v61 main_v66 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v66 main_v67 (broadcastInDim S2097152x1 ![0] bcast_S2097152_S2097152x1_0 : (⟨S2097152, .i32⟩ : BufTy).Contents (Elt F) → (⟨S2097152x1, .i32⟩ : BufTy).Contents (Elt F)),
    binary main_arg1 main_v67 main_v68 ((fun x i => Host.gather gather_S1048576x4_S2097152x1_S2097152x4_1_0_n_n_0_1_14 x i) : (⟨S1048576x4, .f32⟩ : BufTy).Contents (Elt F) → (⟨S2097152x1, .i32⟩ : BufTy).Contents (Elt F) → (⟨S2097152x4, .f32⟩ : BufTy).Contents (Elt F)),
    nullary main_c_21 (constantI S_ 32 1024#32),
    unary main_c_21 main_v69 (broadcastInDim S2097152 ![] bcast_S_S2097152 : (⟨S_, .i32⟩ : BufTy).Contents (Elt F) → (⟨S2097152, .i32⟩ : BufTy).Contents (Elt F)),
    binary main_v28 main_v69 main_v70 (muli : (⟨S2097152, .i32⟩ : BufTy).Contents (Elt F) → (⟨S2097152, .i32⟩ : BufTy).Contents (Elt F) → (⟨S2097152, .i32⟩ : BufTy).Contents (Elt F)),
    binary main_v70 main_v18 main_v71 (addi : (⟨S2097152, .i32⟩ : BufTy).Contents (Elt F) → (⟨S2097152, .i32⟩ : BufTy).Contents (Elt F) → (⟨S2097152, .i32⟩ : BufTy).Contents (Elt F)),
    nullary main_c_22 (constantI S_ 32 0#32),
    unary main_c_22 main_v72 (broadcastInDim S2097152 ![] bcast_S_S2097152 : (⟨S_, .i32⟩ : BufTy).Contents (Elt F) → (⟨S2097152, .i32⟩ : BufTy).Contents (Elt F)),
    binary main_v71 main_v72 main_v73 (cmpi .slt : (⟨S2097152, .i32⟩ : BufTy).Contents (Elt F) → (⟨S2097152, .i32⟩ : BufTy).Contents (Elt F) → (⟨S2097152, .i1⟩ : BufTy).Contents (Elt F)),
    nullary main_c_23 (constantI S_ 32 1048576#32),
    unary main_c_23 main_v74 (broadcastInDim S2097152 ![] bcast_S_S2097152 : (⟨S_, .i32⟩ : BufTy).Contents (Elt F) → (⟨S2097152, .i32⟩ : BufTy).Contents (Elt F)),
    binary main_v71 main_v74 main_v75 (addi : (⟨S2097152, .i32⟩ : BufTy).Contents (Elt F) → (⟨S2097152, .i32⟩ : BufTy).Contents (Elt F) → (⟨S2097152, .i32⟩ : BufTy).Contents (Elt F)),
    ternary main_v73 main_v75 main_v71 main_v76 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v76 main_v77 (broadcastInDim S2097152x1 ![0] bcast_S2097152_S2097152x1_0 : (⟨S2097152, .i32⟩ : BufTy).Contents (Elt F) → (⟨S2097152x1, .i32⟩ : BufTy).Contents (Elt F)),
    binary main_arg1 main_v77 main_v78 ((fun x i => Host.gather gather_S1048576x4_S2097152x1_S2097152x4_1_0_n_n_0_1_14 x i) : (⟨S1048576x4, .f32⟩ : BufTy).Contents (Elt F) → (⟨S2097152x1, .i32⟩ : BufTy).Contents (Elt F) → (⟨S2097152x4, .f32⟩ : BufTy).Contents (Elt F)),
    nullary main_cst_24 (constant S_ .f32 0x3F800000#32),
    unary main_cst_24 main_v79 (broadcastInDim S2097152x1 ![] bcast_S_S2097152x1 : (⟨S_, .f32⟩ : BufTy).Contents (Elt F) → (⟨S2097152x1, .f32⟩ : BufTy).Contents (Elt F)),
    binary main_v79 main_v33 main_v80 (subf : (⟨S2097152x1, .f32⟩ : BufTy).Contents (Elt F) → (⟨S2097152x1, .f32⟩ : BufTy).Contents (Elt F) → (⟨S2097152x1, .f32⟩ : BufTy).Contents (Elt F)),
    unary main_v80 main_v81 (broadcastInDim S2097152x4 ![0, 1] bcast_S2097152x1_S2097152x4_0_1 : (⟨S2097152x1, .f32⟩ : BufTy).Contents (Elt F) → (⟨S2097152x4, .f32⟩ : BufTy).Contents (Elt F)),
    binary main_v48 main_v81 main_v82 (mulf : (⟨S2097152x4, .f32⟩ : BufTy).Contents (Elt F) → (⟨S2097152x4, .f32⟩ : BufTy).Contents (Elt F) → (⟨S2097152x4, .f32⟩ : BufTy).Contents (Elt F)),
    unary main_v33 main_v83 (broadcastInDim S2097152x4 ![0, 1] bcast_S2097152x1_S2097152x4_0_1 : (⟨S2097152x1, .f32⟩ : BufTy).Contents (Elt F) → (⟨S2097152x4, .f32⟩ : BufTy).Contents (Elt F)),
    binary main_v58 main_v83 main_v84 (mulf : (⟨S2097152x4, .f32⟩ : BufTy).Contents (Elt F) → (⟨S2097152x4, .f32⟩ : BufTy).Contents (Elt F) → (⟨S2097152x4, .f32⟩ : BufTy).Contents (Elt F)),
    binary main_v82 main_v84 main_v85 (addf : (⟨S2097152x4, .f32⟩ : BufTy).Contents (Elt F) → (⟨S2097152x4, .f32⟩ : BufTy).Contents (Elt F) → (⟨S2097152x4, .f32⟩ : BufTy).Contents (Elt F)),
    nullary main_cst_25 (constant S_ .f32 0x3F800000#32),
    unary main_cst_25 main_v86 (broadcastInDim S2097152x1 ![] bcast_S_S2097152x1 : (⟨S_, .f32⟩ : BufTy).Contents (Elt F) → (⟨S2097152x1, .f32⟩ : BufTy).Contents (Elt F)),
    binary main_v86 main_v33 main_v87 (subf : (⟨S2097152x1, .f32⟩ : BufTy).Contents (Elt F) → (⟨S2097152x1, .f32⟩ : BufTy).Contents (Elt F) → (⟨S2097152x1, .f32⟩ : BufTy).Contents (Elt F)),
    unary main_v87 main_v88 (broadcastInDim S2097152x4 ![0, 1] bcast_S2097152x1_S2097152x4_0_1 : (⟨S2097152x1, .f32⟩ : BufTy).Contents (Elt F) → (⟨S2097152x4, .f32⟩ : BufTy).Contents (Elt F)),
    binary main_v68 main_v88 main_v89 (mulf : (⟨S2097152x4, .f32⟩ : BufTy).Contents (Elt F) → (⟨S2097152x4, .f32⟩ : BufTy).Contents (Elt F) → (⟨S2097152x4, .f32⟩ : BufTy).Contents (Elt F)),
    unary main_v33 main_v90 (broadcastInDim S2097152x4 ![0, 1] bcast_S2097152x1_S2097152x4_0_1 : (⟨S2097152x1, .f32⟩ : BufTy).Contents (Elt F) → (⟨S2097152x4, .f32⟩ : BufTy).Contents (Elt F)),
    binary main_v78 main_v90 main_v91 (mulf : (⟨S2097152x4, .f32⟩ : BufTy).Contents (Elt F) → (⟨S2097152x4, .f32⟩ : BufTy).Contents (Elt F) → (⟨S2097152x4, .f32⟩ : BufTy).Contents (Elt F)),
    binary main_v89 main_v91 main_v92 (addf : (⟨S2097152x4, .f32⟩ : BufTy).Contents (Elt F) → (⟨S2097152x4, .f32⟩ : BufTy).Contents (Elt F) → (⟨S2097152x4, .f32⟩ : BufTy).Contents (Elt F)),
    nullary main_cst_26 (constant S_ .f32 0x3F800000#32),
    unary main_cst_26 main_v93 (broadcastInDim S2097152x1 ![] bcast_S_S2097152x1 : (⟨S_, .f32⟩ : BufTy).Contents (Elt F) → (⟨S2097152x1, .f32⟩ : BufTy).Contents (Elt F)),
    binary main_v93 main_v38 main_v94 (subf : (⟨S2097152x1, .f32⟩ : BufTy).Contents (Elt F) → (⟨S2097152x1, .f32⟩ : BufTy).Contents (Elt F) → (⟨S2097152x1, .f32⟩ : BufTy).Contents (Elt F)),
    unary main_v94 main_v95 (broadcastInDim S2097152x4 ![0, 1] bcast_S2097152x1_S2097152x4_0_1 : (⟨S2097152x1, .f32⟩ : BufTy).Contents (Elt F) → (⟨S2097152x4, .f32⟩ : BufTy).Contents (Elt F)),
    binary main_v85 main_v95 main_v96 (mulf : (⟨S2097152x4, .f32⟩ : BufTy).Contents (Elt F) → (⟨S2097152x4, .f32⟩ : BufTy).Contents (Elt F) → (⟨S2097152x4, .f32⟩ : BufTy).Contents (Elt F)),
    unary main_v38 main_v97 (broadcastInDim S2097152x4 ![0, 1] bcast_S2097152x1_S2097152x4_0_1 : (⟨S2097152x1, .f32⟩ : BufTy).Contents (Elt F) → (⟨S2097152x4, .f32⟩ : BufTy).Contents (Elt F)),
    binary main_v92 main_v97 main_v98 (mulf : (⟨S2097152x4, .f32⟩ : BufTy).Contents (Elt F) → (⟨S2097152x4, .f32⟩ : BufTy).Contents (Elt F) → (⟨S2097152x4, .f32⟩ : BufTy).Contents (Elt F)),
    binary main_v96 main_v98 main_v99 (addf : (⟨S2097152x4, .f32⟩ : BufTy).Contents (Elt F) → (⟨S2097152x4, .f32⟩ : BufTy).Contents (Elt F) → (⟨S2097152x4, .f32⟩ : BufTy).Contents (Elt F)),
    binary main_v0 main_v99 main_v100 ((fun a b => concatenate S2097152x5 1 [⟨S2097152x1, a⟩, ⟨S2097152x4, b⟩] concatenates_S2097152x1_S2097152x4_S2097152x5_d1) : (⟨S2097152x1, .f32⟩ : BufTy).Contents (Elt F) → (⟨S2097152x4, .f32⟩ : BufTy).Contents (Elt F) → (⟨S2097152x5, .f32⟩ : BufTy).Contents (Elt F)),
    binary main_v100 main_arg2 main_v101 ((fun l r => Host.dotGeneral dot_S2097152x5_S5x64_S2097152x64_1_0_0_1_n_n none l r) : (⟨S2097152x5, .f32⟩ : BufTy).Contents (Elt F) → (⟨S5x64, .f32⟩ : BufTy).Contents (Elt F) → (⟨S2097152x64, .f32⟩ : BufTy).Contents (Elt F)),
    unary main_arg3 main_v102 (broadcastInDim S1x64 ![1] bcast_S64_S1x64_1 : (⟨S64, .f32⟩ : BufTy).Contents (Elt F) → (⟨S1x64, .f32⟩ : BufTy).Contents (Elt F)),
    unary main_v102 main_v103 (broadcastInDim S2097152x64 ![0, 1] bcast_S1x64_S2097152x64_0_1 : (⟨S1x64, .f32⟩ : BufTy).Contents (Elt F) → (⟨S2097152x64, .f32⟩ : BufTy).Contents (Elt F)),
    binary main_v101 main_v103 main_v104 (addf : (⟨S2097152x64, .f32⟩ : BufTy).Contents (Elt F) → (⟨S2097152x64, .f32⟩ : BufTy).Contents (Elt F) → (⟨S2097152x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2097152x64, .f32⟩) main_call3_v0) (broadcastInDim S2097152x64 ![] bcast_S_S2097152x64),
    TRef.binary (TRef.of (T := ⟨S2097152x64, .f32⟩) main_v104) (TRef.of (T := ⟨S2097152x64, .f32⟩) main_call3_v0) (TRef.of (T := ⟨S2097152x64, .f32⟩) main_v105) maximumf,
    binary main_v105 main_arg4 main_v106 ((fun l r => Host.dotGeneral dot_S2097152x64_S64x64_S2097152x64_1_0_0_1_n_n none l r) : (⟨S2097152x64, .f32⟩ : BufTy).Contents (Elt F) → (⟨S64x64, .f32⟩ : BufTy).Contents (Elt F) → (⟨S2097152x64, .f32⟩ : BufTy).Contents (Elt F)),
    unary main_arg5 main_v107 (broadcastInDim S1x64 ![1] bcast_S64_S1x64_1 : (⟨S64, .f32⟩ : BufTy).Contents (Elt F) → (⟨S1x64, .f32⟩ : BufTy).Contents (Elt F)),
    unary main_v107 main_v108 (broadcastInDim S2097152x64 ![0, 1] bcast_S1x64_S2097152x64_0_1 : (⟨S1x64, .f32⟩ : BufTy).Contents (Elt F) → (⟨S2097152x64, .f32⟩ : BufTy).Contents (Elt F)),
    binary main_v106 main_v108 main_v109 (addf : (⟨S2097152x64, .f32⟩ : BufTy).Contents (Elt F) → (⟨S2097152x64, .f32⟩ : BufTy).Contents (Elt F) → (⟨S2097152x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2097152x64, .f32⟩) main_call4_v0) (broadcastInDim S2097152x64 ![] bcast_S_S2097152x64),
    TRef.binary (TRef.of (T := ⟨S2097152x64, .f32⟩) main_v109) (TRef.of (T := ⟨S2097152x64, .f32⟩) main_call4_v0) (TRef.of (T := ⟨S2097152x64, .f32⟩) main_v110) maximumf,
    binary main_v110 main_arg6 main_v111 ((fun l r => Host.dotGeneral dot_S2097152x64_S64x3_S2097152x3_1_0_0_1_n_n none l r) : (⟨S2097152x64, .f32⟩ : BufTy).Contents (Elt F) → (⟨S64x3, .f32⟩ : BufTy).Contents (Elt F) → (⟨S2097152x3, .f32⟩ : BufTy).Contents (Elt F)),
    unary main_arg7 main_v112 (broadcastInDim S1x3 ![1] bcast_S3_S1x3_1 : (⟨S3, .f32⟩ : BufTy).Contents (Elt F) → (⟨S1x3, .f32⟩ : BufTy).Contents (Elt F)),
    unary main_v112 main_v113 (broadcastInDim S2097152x3 ![0, 1] bcast_S1x3_S2097152x3_0_1 : (⟨S1x3, .f32⟩ : BufTy).Contents (Elt F) → (⟨S2097152x3, .f32⟩ : BufTy).Contents (Elt F)),
    binary main_v111 main_v113 main_v114 (addf : (⟨S2097152x3, .f32⟩ : BufTy).Contents (Elt F) → (⟨S2097152x3, .f32⟩ : BufTy).Contents (Elt F) → (⟨S2097152x3, .f32⟩ : BufTy).Contents (Elt F)),
    unary main_v114 main_v115 (Host.negf : (⟨S2097152x3, .f32⟩ : BufTy).Contents (Elt F) → (⟨S2097152x3, .f32⟩ : BufTy).Contents (Elt F)),
    unary main_v115 main_v116 (Host.exp : (⟨S2097152x3, .f32⟩ : BufTy).Contents (Elt F) → (⟨S2097152x3, .f32⟩ : BufTy).Contents (Elt F)),
    nullary main_cst_27 (constant S_ .f32 0x3F800000#32),
    unary main_cst_27 main_v117 (broadcastInDim S2097152x3 ![] bcast_S_S2097152x3 : (⟨S_, .f32⟩ : BufTy).Contents (Elt F) → (⟨S2097152x3, .f32⟩ : BufTy).Contents (Elt F)),
    binary main_v117 main_v116 main_v118 (addf : (⟨S2097152x3, .f32⟩ : BufTy).Contents (Elt F) → (⟨S2097152x3, .f32⟩ : BufTy).Contents (Elt F) → (⟨S2097152x3, .f32⟩ : BufTy).Contents (Elt F)),
    nullary main_cst_28 (constant S_ .f32 0x3F800000#32),
    unary main_cst_28 main_v119 (broadcastInDim S2097152x3 ![] bcast_S_S2097152x3 : (⟨S_, .f32⟩ : BufTy).Contents (Elt F) → (⟨S2097152x3, .f32⟩ : BufTy).Contents (Elt F)),
    binary main_v119 main_v118 main_v120 (Host.divf : (⟨S2097152x3, .f32⟩ : BufTy).Contents (Elt F) → (⟨S2097152x3, .f32⟩ : BufTy).Contents (Elt F) → (⟨S2097152x3, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- On every device, from any memory with zero counters: every weakly fair execution of the reference terminates, and
    every buffer ends at the operations' composition applied to the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.HostRun

end
-- ==== Proof.LibConcatCols.lean ====
/-
  Two matrices with the same number of rows, joined side by side, read at an index: entry `(r, k)` of the join is
  the left matrix's entry `(r, k)` while `k` is a column of the left matrix, and the right matrix's entry
  `(r, k - b₁)` past it (`b₁` the left matrix's width).
-/
import Idealize.ShloMosaic.Lib.Pipeline.Value
import Idealize.ShloMosaic.Lib.ValueIdx

noncomputable section

namespace Cert.LibConcatCols

open Idealize.ShloMosaic Idealize.ShloMosaic.ValueIdx

variable {α : Type}

/-- A column of the left matrix: the join reads the left matrix there. -/
theorem concat_cols_left {R b₁ b₂ n : Nat} (x : (⟨2, ![R, b₁]⟩ : Shape).Idx → α) (e : (⟨2, ![R, b₂]⟩ : Shape).Idx → α)
    (h : Shape.Concatenates [(⟨2, ![R, b₁]⟩ : Shape), ⟨2, ![R, b₂]⟩] ⟨2, ![R, n]⟩ 1) (r : Fin R) (k : Fin n) (hk : k.val < b₁) :
    concatenate ⟨2, ![R, n]⟩ 1 [⟨⟨2, ![R, b₁]⟩, x⟩, ⟨⟨2, ![R, b₂]⟩, e⟩] h (ix2 r k) = x (ix2 r ⟨k.val, hk⟩) :=
  concatenate_pair_apply_left 1 x e h (ix2 r k) rfl (ix2 r ⟨k.val, hk⟩) fun b => by
    match b with
    | ⟨0, _⟩ => rfl
    | ⟨1, _⟩ => rfl

/-- A column past the left matrix: the join reads the right matrix, the left width less. -/
theorem concat_cols_right {R b₁ b₂ n : Nat} (x : (⟨2, ![R, b₁]⟩ : Shape).Idx → α) (e : (⟨2, ![R, b₂]⟩ : Shape).Idx → α)
    (h : Shape.Concatenates [(⟨2, ![R, b₁]⟩ : Shape), ⟨2, ![R, b₂]⟩] ⟨2, ![R, n]⟩ 1) (r : Fin R) (k : Fin n) (hk : b₁ ≤ k.val)
    (hk₂ : k.val - b₁ < b₂) :
    concatenate ⟨2, ![R, n]⟩ 1 [⟨⟨2, ![R, b₁]⟩, x⟩, ⟨⟨2, ![R, b₂]⟩, e⟩] h (ix2 r k) = e (ix2 r ⟨k.val - b₁, hk₂⟩) :=
  concatenate_pair_apply_right 1 x e h (ix2 r k) rfl rfl (ix2 r ⟨k.val - b₁, hk₂⟩)
    (fun b hb => by
      match b with
      | ⟨0, _⟩ => rfl
      | ⟨1, _⟩ => exact absurd rfl hb)
    (by show k.val - b₁ + b₁ = k.val; omega)

end Cert.LibConcatCols

end
-- ==== Proof.LibRowOf.lean ====
/-
  A vector of length `n` laid out as the single row of a 1 × n matrix, read at an index: entry `(0, t)` of the row
  is entry `t` of the vector. General in the length; nothing here mentions a program.
-/
import Idealize.ShloMosaic.Lib.Pipeline.Value
import Idealize.ShloMosaic.Lib.ValueIdx

namespace Cert.Lib.RowOf

open Idealize.ShloMosaic Idealize.ShloMosaic.ValueIdx

variable {α : Type}

/-- An `[n]` array broadcast along axis 1 into `[1, n]` reads, at `(0, t)`, the operand at `t`. -/
theorem broadcastInDim_a_1a_apply {n : ℕ} (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) fun a => ?_
  match a with
  | ⟨0, _⟩ =>
    show t.val = if n = 1 then 0 else t.val
    split
    · have := t.isLt; omega
    · rfl

end Cert.Lib.RowOf
-- ==== Proof.LibAfterAppend.lean ====
/-
  A line of host operations run in two stretches: the buffers after the whole line are the buffers after the second
  stretch, started from the buffers after the first. General in the operations; nothing here mentions a program.
-/
import Idealize.ShloMosaic.Lib.StableHlo.Run

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend
-- ==== Proof.RefKept.lean ====
/-
  The reference program leaves its arguments alone: none of its host operations writes an argument buffer, so after the
  whole line each argument buffer holds what it held at launch.
-/
import proofs.«130771_j3255585210920_2_alg».proof.Proof.RefRun

set_option maxRecDepth 16384

noncomputable section

namespace Cert.ReferenceIdeal.RefKept

open Cert.ReferenceIdeal Cert.ReferenceIdeal.Gen Idealize.ShloMosaic Idealize.ShloMosaic.TcCoe Idealize.SL.Sem
open Idealize.ShloMosaic.StableHlo

variable {F : FTy → Type} [FloatOps F] (M : Valuation τ sig (Elt F))

set_option maxHeartbeats 4000000 in
theorem kept_arg0 : after (HostRun.ops (F := F)) M (Proc.devRef .tc main_arg0) = M (Proc.devRef .tc main_arg0) := by
  unfold HostRun.ops
  after_results_simp <;> rfl

set_option maxHeartbeats 4000000 in
theorem kept_arg1 : after (HostRun.ops (F := F)) M (Proc.devRef .tc main_arg1) = M (Proc.devRef .tc main_arg1) := by
  unfold HostRun.ops
  after_results_simp <;> rfl

set_option maxHeartbeats 4000000 in
theorem kept_arg2 : after (HostRun.ops (F := F)) M (Proc.devRef .tc main_arg2) = M (Proc.devRef .tc main_arg2) := by
  unfold HostRun.ops
  after_results_simp <;> rfl

set_option maxHeartbeats 4000000 in
theorem kept_arg3 : after (HostRun.ops (F := F)) M (Proc.devRef .tc main_arg3) = M (Proc.devRef .tc main_arg3) := by
  unfold HostRun.ops
  after_results_simp <;> rfl

set_option maxHeartbeats 4000000 in
theorem kept_arg4 : after (HostRun.ops (F := F)) M (Proc.devRef .tc main_arg4) = M (Proc.devRef .tc main_arg4) := by
  unfold HostRun.ops
  after_results_simp <;> rfl

set_option maxHeartbeats 4000000 in
theorem kept_arg5 : after (HostRun.ops (F := F)) M (Proc.devRef .tc main_arg5) = M (Proc.devRef .tc main_arg5) := by
  unfold HostRun.ops
  after_results_simp <;> rfl

set_option maxHeartbeats 4000000 in
theorem kept_arg6 : after (HostRun.ops (F := F)) M (Proc.devRef .tc main_arg6) = M (Proc.devRef .tc main_arg6) := by
  unfold HostRun.ops
  after_results_simp <;> rfl

set_option maxHeartbeats 4000000 in
theorem kept_arg7 : after (HostRun.ops (F := F)) M (Proc.devRef .tc main_arg7) = M (Proc.devRef .tc main_arg7) := by
  unfold HostRun.ops
  after_results_simp <;> rfl

end Cert.ReferenceIdeal.RefKept

end
-- ==== Proof.RefValue.lean ====
/-
  The reference program's result is the network.

  After the interpolated features are computed, the reference joins the identifier column to them (a 2097152 × 5
  array), multiplies by the 5 × 64 first-layer matrix, adds the first bias along every row and clamps at zero; does the
  same with the 64 × 64 matrix and the second bias; multiplies by the 64 × 3 matrix, adds the third bias, and forms
  `1 / (1 + exp (−z))` entry by entry. Each product is a sum over the contracted axis; the sum over the five joined
  inputs is the identifier's term beside the sum over the four features; and the quotient is the logistic function.
-/
import proofs.«130771_j3255585210920_2_alg».proof.Proof.RefRun
import proofs.«130771_j3255585210920_2_alg».proof.Proof.Net
import proofs.«130771_j3255585210920_2_alg».proof.Proof.LibConcatCols
import proofs.«130771_j3255585210920_2_alg».proof.Proof.LibRowOf
import proofs.«130771_j3255585210920_2_alg».proof.Proof.LibAfterAppend
import proofs.«130771_j3255585210920_2_alg».proof.Proof.RefKept
import Idealize.ShloMosaic.Lib.KernelVsHost
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-! ## The last stretch of the program as one function -/

/-- The clamp at zero of a 2097152 × 64 array, as the outlined function spells it. -/
def clamp (X : FVec Ideal S2097152x64 .f32) : FVec Ideal S2097152x64 .f32 :=
  maximumf X (broadcastInDim S2097152x64 ![] bcast_S_S2097152x64 (constant (F := Ideal) S_ .f32 0x00000000#32))

/-- A 64-vector laid along every row of a 2097152 × 64 array. -/
def biasRows (b : FVec Ideal S64 .f32) : FVec Ideal S2097152x64 .f32 :=
  broadcastInDim S2097152x64 ![0, 1] bcast_S1x64_S2097152x64_0_1 (broadcastInDim S1x64 ![1] bcast_S64_S1x64_1 b)

/-- The program from the join of the identifier column and the features to its result. -/
def head (c0 : FVec Ideal S2097152x1 .f32) (feat : FVec Ideal S2097152x4 .f32) (w1 : FVec Ideal S5x64 .f32)
    (b1 : FVec Ideal S64 .f32) (w2 : FVec Ideal S64x64 .f32) (b2 : FVec Ideal S64 .f32) (w3 : FVec Ideal S64x3 .f32)
    (b3 : FVec Ideal S3 .f32) : FVec Ideal S2097152x3 .f32 :=
  Host.divf (broadcastInDim S2097152x3 ![] bcast_S_S2097152x3 (constant (F := Ideal) S_ .f32 0x3F800000#32))
    (addf (broadcastInDim S2097152x3 ![] bcast_S_S2097152x3 (constant (F := Ideal) S_ .f32 0x3F800000#32))
      (Host.exp (Host.negf (addf
        (Host.dotGeneral dot_S2097152x64_S64x3_S2097152x3_1_0_0_1_n_n none
          (clamp (addf (Host.dotGeneral dot_S2097152x64_S64x64_S2097152x64_1_0_0_1_n_n none
            (clamp (addf (Host.dotGeneral dot_S2097152x5_S5x64_S2097152x64_1_0_0_1_n_n none
              (concatenate S2097152x5 1 [⟨S2097152x1, c0⟩, ⟨S2097152x4, feat⟩] concatenates_S2097152x1_S2097152x4_S2097152x5_d1) w1)
              (biasRows b1))) w2) (biasRows b2))) w3)
        (broadcastInDim S2097152x3 ![0, 1] bcast_S1x3_S2097152x3_0_1 (broadcastInDim S1x3 ![1] bcast_S3_S1x3_1 b3))))))

/-! ## The line cut after the features -/

/-- The program's last 27 operations: the join of the identifier column with the features, the three layers, and the
    logistic function spelt out. -/
abbrev lastOps {F : FTy → Type} [FloatOps F] : List (HloOp τ sig (Elt F)) :=
  [ binary main_v0 main_v99 main_v100 ((fun a b => concatenate S2097152x5 1 [⟨S2097152x1, a⟩, ⟨S2097152x4, b⟩] concatenates_S2097152x1_S2097152x4_S2097152x5_d1) : (⟨S2097152x1, .f32⟩ : BufTy).Contents (Elt F) → (⟨S2097152x4, .f32⟩ : BufTy).Contents (Elt F) → (⟨S2097152x5, .f32⟩ : BufTy).Contents (Elt F)),
    binary main_v100 main_arg2 main_v101 ((fun l r => Host.dotGeneral dot_S2097152x5_S5x64_S2097152x64_1_0_0_1_n_n none l r) : (⟨S2097152x5, .f32⟩ : BufTy).Contents (Elt F) → (⟨S5x64, .f32⟩ : BufTy).Contents (Elt F) → (⟨S2097152x64, .f32⟩ : BufTy).Contents (Elt F)),
    unary main_arg3 main_v102 (broadcastInDim S1x64 ![1] bcast_S64_S1x64_1 : (⟨S64, .f32⟩ : BufTy).Contents (Elt F) → (⟨S1x64, .f32⟩ : BufTy).Contents (Elt F)),
    unary main_v102 main_v103 (broadcastInDim S2097152x64 ![0, 1] bcast_S1x64_S2097152x64_0_1 : (⟨S1x64, .f32⟩ : BufTy).Contents (Elt F) → (⟨S2097152x64, .f32⟩ : BufTy).Contents (Elt F)),
    binary main_v101 main_v103 main_v104 (addf : (⟨S2097152x64, .f32⟩ : BufTy).Contents (Elt F) → (⟨S2097152x64, .f32⟩ : BufTy).Contents (Elt F) → (⟨S2097152x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2097152x64, .f32⟩) main_call3_v0) (broadcastInDim S2097152x64 ![] bcast_S_S2097152x64),
    TRef.binary (TRef.of (T := ⟨S2097152x64, .f32⟩) main_v104) (TRef.of (T := ⟨S2097152x64, .f32⟩) main_call3_v0) (TRef.of (T := ⟨S2097152x64, .f32⟩) main_v105) maximumf,
    binary main_v105 main_arg4 main_v106 ((fun l r => Host.dotGeneral dot_S2097152x64_S64x64_S2097152x64_1_0_0_1_n_n none l r) : (⟨S2097152x64, .f32⟩ : BufTy).Contents (Elt F) → (⟨S64x64, .f32⟩ : BufTy).Contents (Elt F) → (⟨S2097152x64, .f32⟩ : BufTy).Contents (Elt F)),
    unary main_arg5 main_v107 (broadcastInDim S1x64 ![1] bcast_S64_S1x64_1 : (⟨S64, .f32⟩ : BufTy).Contents (Elt F) → (⟨S1x64, .f32⟩ : BufTy).Contents (Elt F)),
    unary main_v107 main_v108 (broadcastInDim S2097152x64 ![0, 1] bcast_S1x64_S2097152x64_0_1 : (⟨S1x64, .f32⟩ : BufTy).Contents (Elt F) → (⟨S2097152x64, .f32⟩ : BufTy).Contents (Elt F)),
    binary main_v106 main_v108 main_v109 (addf : (⟨S2097152x64, .f32⟩ : BufTy).Contents (Elt F) → (⟨S2097152x64, .f32⟩ : BufTy).Contents (Elt F) → (⟨S2097152x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2097152x64, .f32⟩) main_call4_v0) (broadcastInDim S2097152x64 ![] bcast_S_S2097152x64),
    TRef.binary (TRef.of (T := ⟨S2097152x64, .f32⟩) main_v109) (TRef.of (T := ⟨S2097152x64, .f32⟩) main_call4_v0) (TRef.of (T := ⟨S2097152x64, .f32⟩) main_v110) maximumf,
    binary main_v110 main_arg6 main_v111 ((fun l r => Host.dotGeneral dot_S2097152x64_S64x3_S2097152x3_1_0_0_1_n_n none l r) : (⟨S2097152x64, .f32⟩ : BufTy).Contents (Elt F) → (⟨S64x3, .f32⟩ : BufTy).Contents (Elt F) → (⟨S2097152x3, .f32⟩ : BufTy).Contents (Elt F)),
    unary main_arg7 main_v112 (broadcastInDim S1x3 ![1] bcast_S3_S1x3_1 : (⟨S3, .f32⟩ : BufTy).Contents (Elt F) → (⟨S1x3, .f32⟩ : BufTy).Contents (Elt F)),
    unary main_v112 main_v113 (broadcastInDim S2097152x3 ![0, 1] bcast_S1x3_S2097152x3_0_1 : (⟨S1x3, .f32⟩ : BufTy).Contents (Elt F) → (⟨S2097152x3, .f32⟩ : BufTy).Contents (Elt F)),
    binary main_v111 main_v113 main_v114 (addf : (⟨S2097152x3, .f32⟩ : BufTy).Contents (Elt F) → (⟨S2097152x3, .f32⟩ : BufTy).Contents (Elt F) → (⟨S2097152x3, .f32⟩ : BufTy).Contents (Elt F)),
    unary main_v114 main_v115 (Host.negf : (⟨S2097152x3, .f32⟩ : BufTy).Contents (Elt F) → (⟨S2097152x3, .f32⟩ : BufTy).Contents (Elt F)),
    unary main_v115 main_v116 (Host.exp : (⟨S2097152x3, .f32⟩ : BufTy).Contents (Elt F) → (⟨S2097152x3, .f32⟩ : BufTy).Contents (Elt F)),
    nullary main_cst_27 (constant S_ .f32 0x3F800000#32),
    unary main_cst_27 main_v117 (broadcastInDim S2097152x3 ![] bcast_S_S2097152x3 : (⟨S_, .f32⟩ : BufTy).Contents (Elt F) → (⟨S2097152x3, .f32⟩ : BufTy).Contents (Elt F)),
    binary main_v117 main_v116 main_v118 (addf : (⟨S2097152x3, .f32⟩ : BufTy).Contents (Elt F) → (⟨S2097152x3, .f32⟩ : BufTy).Contents (Elt F) → (⟨S2097152x3, .f32⟩ : BufTy).Contents (Elt F)),
    nullary main_cst_28 (constant S_ .f32 0x3F800000#32),
    unary main_cst_28 main_v119 (broadcastInDim S2097152x3 ![] bcast_S_S2097152x3 : (⟨S_, .f32⟩ : BufTy).Contents (Elt F) → (⟨S2097152x3, .f32⟩ : BufTy).Contents (Elt F)),
    binary main_v119 main_v118 main_v120 (Host.divf : (⟨S2097152x3, .f32⟩ : BufTy).Contents (Elt F) → (⟨S2097152x3, .f32⟩ : BufTy).Contents (Elt F) → (⟨S2097152x3, .f32⟩ : BufTy).Contents (Elt F)) ]

/-- The whole line is its first 135 operations followed by these. -/
theorem ops_cut : HostRun.ops (F := Ideal) = (HostRun.ops (F := Ideal)).take 135 ++ lastOps (F := Ideal) := rfl

/-- From any contents, the last stretch leaves the result buffer at `head` of the identifier column's buffer, the
    features' buffer and the parameters. -/
theorem last_head (W : Valuation τ sig (Elt Ideal)) :
    after (lastOps (F := Ideal)) W (Proc.devRef .tc main_v120)
      = head (W (Proc.devRef .tc main_v0)) (W (Proc.devRef .tc main_v99)) (W (Proc.devRef .tc main_arg2))
          (W (Proc.devRef .tc main_arg3)) (W (Proc.devRef .tc main_arg4)) (W (Proc.devRef .tc main_arg5))
          (W (Proc.devRef .tc main_arg6)) (W (Proc.devRef .tc main_arg7)) := by
  unfold lastOps
  after_results_simp <;> rfl

/-- The last stretch does not write `main_v0`. -/
theorem last_keeps_main_v0 (W : Valuation τ sig (Elt Ideal)) :
    after (lastOps (F := Ideal)) W (Proc.devRef .tc main_v0) = W (Proc.devRef .tc main_v0) := by
  unfold lastOps
  after_results_simp <;> rfl

/-- The last stretch does not write `main_v99`. -/
theorem last_keeps_main_v99 (W : Valuation τ sig (Elt Ideal)) :
    after (lastOps (F := Ideal)) W (Proc.devRef .tc main_v99) = W (Proc.devRef .tc main_v99) := by
  unfold lastOps
  after_results_simp <;> rfl

/-- The last stretch does not write `main_arg2`. -/
theorem last_keeps_main_arg2 (W : Valuation τ sig (Elt Ideal)) :
    after (lastOps (F := Ideal)) W (Proc.devRef .tc main_arg2) = W (Proc.devRef .tc main_arg2) := by
  unfold lastOps
  after_results_simp <;> rfl

/-- The last stretch does not write `main_arg3`. -/
theorem last_keeps_main_arg3 (W : Valuation τ sig (Elt Ideal)) :
    after (lastOps (F := Ideal)) W (Proc.devRef .tc main_arg3) = W (Proc.devRef .tc main_arg3) := by
  unfold lastOps
  after_results_simp <;> rfl

/-- The last stretch does not write `main_arg4`. -/
theorem last_keeps_main_arg4 (W : Valuation τ sig (Elt Ideal)) :
    after (lastOps (F := Ideal)) W (Proc.devRef .tc main_arg4) = W (Proc.devRef .tc main_arg4) := by
  unfold lastOps
  after_results_simp <;> rfl

/-- The last stretch does not write `main_arg5`. -/
theorem last_keeps_main_arg5 (W : Valuation τ sig (Elt Ideal)) :
    after (lastOps (F := Ideal)) W (Proc.devRef .tc main_arg5) = W (Proc.devRef .tc main_arg5) := by
  unfold lastOps
  after_results_simp <;> rfl

/-- The last stretch does not write `main_arg6`. -/
theorem last_keeps_main_arg6 (W : Valuation τ sig (Elt Ideal)) :
    after (lastOps (F := Ideal)) W (Proc.devRef .tc main_arg6) = W (Proc.devRef .tc main_arg6) := by
  unfold lastOps
  after_results_simp <;> rfl

/-- The last stretch does not write `main_arg7`. -/
theorem last_keeps_main_arg7 (W : Valuation τ sig (Elt Ideal)) :
    after (lastOps (F := Ideal)) W (Proc.devRef .tc main_arg7) = W (Proc.devRef .tc main_arg7) := by
  unfold lastOps
  after_results_simp <;> rfl

/-- The run's result buffer holds `head` of the identifier column's buffer, the features' buffer and the parameters. -/
theorem result_head (M : Valuation τ sig (Elt Ideal)) :
    after (HostRun.ops (F := Ideal)) M (Proc.devRef .tc main_v120)
      = head (after (HostRun.ops (F := Ideal)) M (Proc.devRef .tc main_v0)) (after (HostRun.ops (F := Ideal)) M (Proc.devRef .tc main_v99))
          (M (Proc.devRef .tc main_arg2)) (M (Proc.devRef .tc main_arg3)) (M (Proc.devRef .tc main_arg4))
          (M (Proc.devRef .tc main_arg5)) (M (Proc.devRef .tc main_arg6)) (M (Proc.devRef .tc main_arg7)) := by
  obtain ⟨W, hW⟩ : ∃ W, W = after ((HostRun.ops (F := Ideal)).take 135) M := ⟨_, rfl⟩
  have split : ∀ b, after (HostRun.ops (F := Ideal)) M b = after (lastOps (F := Ideal)) W b := fun b => by
    rw [hW, ← Cert.Lib.AfterAppend.after_append, ← ops_cut]
  have e0 : after (HostRun.ops (F := Ideal)) M (Proc.devRef .tc main_v0) = W (Proc.devRef .tc main_v0) :=
    (split _).trans (last_keeps_main_v0 W)
  have e99 : after (HostRun.ops (F := Ideal)) M (Proc.devRef .tc main_v99) = W (Proc.devRef .tc main_v99) :=
    (split _).trans (last_keeps_main_v99 W)
  have e2 : M (Proc.devRef .tc main_arg2) = W (Proc.devRef .tc main_arg2) :=
    (RefKept.kept_arg2 (F := Ideal) M).symm.trans ((split _).trans (last_keeps_main_arg2 W))
  have e3 : M (Proc.devRef .tc main_arg3) = W (Proc.devRef .tc main_arg3) :=
    (RefKept.kept_arg3 (F := Ideal) M).symm.trans ((split _).trans (last_keeps_main_arg3 W))
  have e4 : M (Proc.devRef .tc main_arg4) = W (Proc.devRef .tc main_arg4) :=
    (RefKept.kept_arg4 (F := Ideal) M).symm.trans ((split _).trans (last_keeps_main_arg4 W))
  have e5 : M (Proc.devRef .tc main_arg5) = W (Proc.devRef .tc main_arg5) :=
    (RefKept.kept_arg5 (F := Ideal) M).symm.trans ((split _).trans (last_keeps_main_arg5 W))
  have e6 : M (Proc.devRef .tc main_arg6) = W (Proc.devRef .tc main_arg6) :=
    (RefKept.kept_arg6 (F := Ideal) M).symm.trans ((split _).trans (last_keeps_main_arg6 W))
  have e7 : M (Proc.devRef .tc main_arg7) = W (Proc.devRef .tc main_arg7) :=
    (RefKept.kept_arg7 (F := Ideal) M).symm.trans ((split _).trans (last_keeps_main_arg7 W))
  rw [split, last_head, e0, e99, e2, e3, e4, e5, e6, e7]

set_option maxHeartbeats 4000000 in
/-- The identifier column's buffer holds the input's first column. -/
theorem idCol_eq (M : Valuation τ sig (Elt Ideal)) :
    after (HostRun.ops (F := Ideal)) M (Proc.devRef .tc main_v0)
      = extractStridedSlice S2097152x1 ![0, 0] (M (Proc.devRef .tc main_arg0)) slices_S2097152x3_S2097152x1_0_0 := by
  unfold HostRun.ops
  after_results_simp <;> rfl

/-! ## The products as sums -/

/-- The 2097152 × 5 by 5 × 64 product: entry `(n, a)` sums over the five joined inputs. -/
theorem prod_first (l : FVec Ideal S2097152x5 .f32) (r : FVec Ideal S5x64 .f32) (n : Fin 2097152) (a : Fin 64) :
    Host.dotGeneral dot_S2097152x5_S5x64_S2097152x64_1_0_0_1_n_n none l r (ix2 n a) = ∑ k : Fin 5, l (ix2 n k) * r (ix2 k a) := by
  have h0 : ∀ (kk : dot_S2097152x5_S5x64_S2097152x64_1_0_0_1_n_n.contr.Idx), (dot_S2097152x5_S5x64_S2097152x64_1_0_0_1_n_n.lhsIdx (ix2 n a) kk 0).val = n.val := fun kk => by
    unfold DotDims.lhsIdx
    rw [dif_neg (show ¬(0 : Fin S2097152x5.rank) ∈ dot_S2097152x5_S5x64_S2097152x64_1_0_0_1_n_n.lhsBatch by decide),
      dif_pos (show (0 : Fin S2097152x5.rank) ∈ dot_S2097152x5_S5x64_S2097152x64_1_0_0_1_n_n.lhsNonContracting by decide)]
    rfl
  have h1 : ∀ (kk : dot_S2097152x5_S5x64_S2097152x64_1_0_0_1_n_n.contr.Idx), (dot_S2097152x5_S5x64_S2097152x64_1_0_0_1_n_n.rhsIdx (ix2 n a) kk 1).val = a.val := fun kk => by
    unfold DotDims.rhsIdx
    rw [dif_neg (show ¬(1 : Fin S5x64.rank) ∈ dot_S2097152x5_S5x64_S2097152x64_1_0_0_1_n_n.rhsBatch by decide),
      dif_pos (show (1 : Fin S5x64.rank) ∈ dot_S2097152x5_S5x64_S2097152x64_1_0_0_1_n_n.rhsNonContracting by decide)]
    rfl
  unfold Host.dotGeneral
  refine (Ideal.dotGeneral_apply dot_S2097152x5_S5x64_S2097152x64_1_0_0_1_n_n none _ l r (ix2 n a)).trans ?_
  rw [← Equiv.sum_comp (contrEquiv1 dot_S2097152x5_S5x64_S2097152x64_1_0_0_1_n_n 5 rfl rfl).symm]
  refine Finset.sum_congr rfl fun k _ => ?_
  have hk := contrEquiv1_symm_val dot_S2097152x5_S5x64_S2097152x64_1_0_0_1_n_n 5 rfl rfl k
  have el : dot_S2097152x5_S5x64_S2097152x64_1_0_0_1_n_n.lhsIdx (ix2 n a) ((contrEquiv1 dot_S2097152x5_S5x64_S2097152x64_1_0_0_1_n_n 5 rfl rfl).symm k) = ix2 n k := funext fun b => Fin.ext (by
    match b with
    | ⟨0, _⟩ => exact h0 _
    | ⟨1, _⟩ => exact (dot_S2097152x5_S5x64_S2097152x64_1_0_0_1_n_n.lhsIdx_val_of_single rfl _ _).trans hk)
  have er : dot_S2097152x5_S5x64_S2097152x64_1_0_0_1_n_n.rhsIdx (ix2 n a) ((contrEquiv1 dot_S2097152x5_S5x64_S2097152x64_1_0_0_1_n_n 5 rfl rfl).symm k) = ix2 k a := funext fun b => Fin.ext (by
    match b with
    | ⟨0, _⟩ => exact (dot_S2097152x5_S5x64_S2097152x64_1_0_0_1_n_n.rhsIdx_val_of_single rfl _ _).trans hk
    | ⟨1, _⟩ => exact h1 _)
  rw [el, er]

/-- The 2097152 × 64 by 64 × 64 product: entry `(n, a)` sums over the first hidden layer. -/
theorem prod_second (l : FVec Ideal S2097152x64 .f32) (r : FVec Ideal S64x64 .f32) (n : Fin 2097152) (a : Fin 64) :
    Host.dotGeneral dot_S2097152x64_S64x64_S2097152x64_1_0_0_1_n_n none l r (ix2 n a) = ∑ k : Fin 64, l (ix2 n k) * r (ix2 k a) := by
  have h0 : ∀ (kk : dot_S2097152x64_S64x64_S2097152x64_1_0_0_1_n_n.contr.Idx), (dot_S2097152x64_S64x64_S2097152x64_1_0_0_1_n_n.lhsIdx (ix2 n a) kk 0).val = n.val := fun kk => by
    unfold DotDims.lhsIdx
    rw [dif_neg (show ¬(0 : Fin S2097152x64.rank) ∈ dot_S2097152x64_S64x64_S2097152x64_1_0_0_1_n_n.lhsBatch by decide),
      dif_pos (show (0 : Fin S2097152x64.rank) ∈ dot_S2097152x64_S64x64_S2097152x64_1_0_0_1_n_n.lhsNonContracting by decide)]
    rfl
  have h1 : ∀ (kk : dot_S2097152x64_S64x64_S2097152x64_1_0_0_1_n_n.contr.Idx), (dot_S2097152x64_S64x64_S2097152x64_1_0_0_1_n_n.rhsIdx (ix2 n a) kk 1).val = a.val := fun kk => by
    unfold DotDims.rhsIdx
    rw [dif_neg (show ¬(1 : Fin S64x64.rank) ∈ dot_S2097152x64_S64x64_S2097152x64_1_0_0_1_n_n.rhsBatch by decide),
      dif_pos (show (1 : Fin S64x64.rank) ∈ dot_S2097152x64_S64x64_S2097152x64_1_0_0_1_n_n.rhsNonContracting by decide)]
    rfl
  unfold Host.dotGeneral
  refine (Ideal.dotGeneral_apply dot_S2097152x64_S64x64_S2097152x64_1_0_0_1_n_n none _ l r (ix2 n a)).trans ?_
  rw [← Equiv.sum_comp (contrEquiv1 dot_S2097152x64_S64x64_S2097152x64_1_0_0_1_n_n 64 rfl rfl).symm]
  refine Finset.sum_congr rfl fun k _ => ?_
  have hk := contrEquiv1_symm_val dot_S2097152x64_S64x64_S2097152x64_1_0_0_1_n_n 64 rfl rfl k
  have el : dot_S2097152x64_S64x64_S2097152x64_1_0_0_1_n_n.lhsIdx (ix2 n a) ((contrEquiv1 dot_S2097152x64_S64x64_S2097152x64_1_0_0_1_n_n 64 rfl rfl).symm k) = ix2 n k := funext fun b => Fin.ext (by
    match b with
    | ⟨0, _⟩ => exact h0 _
    | ⟨1, _⟩ => exact (dot_S2097152x64_S64x64_S2097152x64_1_0_0_1_n_n.lhsIdx_val_of_single rfl _ _).trans hk)
  have er : dot_S2097152x64_S64x64_S2097152x64_1_0_0_1_n_n.rhsIdx (ix2 n a) ((contrEquiv1 dot_S2097152x64_S64x64_S2097152x64_1_0_0_1_n_n 64 rfl rfl).symm k) = ix2 k a := funext fun b => Fin.ext (by
    match b with
    | ⟨0, _⟩ => exact (dot_S2097152x64_S64x64_S2097152x64_1_0_0_1_n_n.rhsIdx_val_of_single rfl _ _).trans hk
    | ⟨1, _⟩ => exact h1 _)
  rw [el, er]

/-- The 2097152 × 64 by 64 × 3 product: entry `(n, p)` sums over the second hidden layer. -/
theorem prod_third (l : FVec Ideal S2097152x64 .f32) (r : FVec Ideal S64x3 .f32) (n : Fin 2097152) (a : Fin 3) :
    Host.dotGeneral dot_S2097152x64_S64x3_S2097152x3_1_0_0_1_n_n none l r (ix2 n a) = ∑ k : Fin 64, l (ix2 n k) * r (ix2 k a) := by
  have h0 : ∀ (kk : dot_S2097152x64_S64x3_S2097152x3_1_0_0_1_n_n.contr.Idx), (dot_S2097152x64_S64x3_S2097152x3_1_0_0_1_n_n.lhsIdx (ix2 n a) kk 0).val = n.val := fun kk => by
    unfold DotDims.lhsIdx
    rw [dif_neg (show ¬(0 : Fin S2097152x64.rank) ∈ dot_S2097152x64_S64x3_S2097152x3_1_0_0_1_n_n.lhsBatch by decide),
      dif_pos (show (0 : Fin S2097152x64.rank) ∈ dot_S2097152x64_S64x3_S2097152x3_1_0_0_1_n_n.lhsNonContracting by decide)]
    rfl
  have h1 : ∀ (kk : dot_S2097152x64_S64x3_S2097152x3_1_0_0_1_n_n.contr.Idx), (dot_S2097152x64_S64x3_S2097152x3_1_0_0_1_n_n.rhsIdx (ix2 n a) kk 1).val = a.val := fun kk => by
    unfold DotDims.rhsIdx
    rw [dif_neg (show ¬(1 : Fin S64x3.rank) ∈ dot_S2097152x64_S64x3_S2097152x3_1_0_0_1_n_n.rhsBatch by decide),
      dif_pos (show (1 : Fin S64x3.rank) ∈ dot_S2097152x64_S64x3_S2097152x3_1_0_0_1_n_n.rhsNonContracting by decide)]
    rfl
  unfold Host.dotGeneral
  refine (Ideal.dotGeneral_apply dot_S2097152x64_S64x3_S2097152x3_1_0_0_1_n_n none _ l r (ix2 n a)).trans ?_
  rw [← Equiv.sum_comp (contrEquiv1 dot_S2097152x64_S64x3_S2097152x3_1_0_0_1_n_n 64 rfl rfl).symm]
  refine Finset.sum_congr rfl fun k _ => ?_
  have hk := contrEquiv1_symm_val dot_S2097152x64_S64x3_S2097152x3_1_0_0_1_n_n 64 rfl rfl k
  have el : dot_S2097152x64_S64x3_S2097152x3_1_0_0_1_n_n.lhsIdx (ix2 n a) ((contrEquiv1 dot_S2097152x64_S64x3_S2097152x3_1_0_0_1_n_n 64 rfl rfl).symm k) = ix2 n k := funext fun b => Fin.ext (by
    match b with
    | ⟨0, _⟩ => exact h0 _
    | ⟨1, _⟩ => exact (dot_S2097152x64_S64x3_S2097152x3_1_0_0_1_n_n.lhsIdx_val_of_single rfl _ _).trans hk)
  have er : dot_S2097152x64_S64x3_S2097152x3_1_0_0_1_n_n.rhsIdx (ix2 n a) ((contrEquiv1 dot_S2097152x64_S64x3_S2097152x3_1_0_0_1_n_n 64 rfl rfl).symm k) = ix2 k a := funext fun b => Fin.ext (by
    match b with
    | ⟨0, _⟩ => exact (dot_S2097152x64_S64x3_S2097152x3_1_0_0_1_n_n.rhsIdx_val_of_single rfl _ _).trans hk
    | ⟨1, _⟩ => exact h1 _)
  rw [el, er]

/-! ## The pieces read at an index -/

theorem clamp_apply (X : FVec Ideal S2097152x64 .f32) (j : S2097152x64.Idx) : clamp X j = max (X j) Mlp.floor0 := by
  show max (X j) (broadcastInDim S2097152x64 ![] bcast_S_S2097152x64 (constant (F := Ideal) S_ .f32 0x00000000#32) j) = _
  rw [broadcastInDim_scalar_apply]
  rfl

theorem biasRows_apply (b : FVec Ideal S64 .f32) (n : Fin 2097152) (a : Fin 64) : biasRows b (ix2 n a) = b (ix1 a) :=
  (broadcastInDim_oneRow_apply _ _ n a).trans (Cert.Lib.RowOf.broadcastInDim_a_1a_apply _ _ a)

/-- The join at row `n`: the identifier first, then the four features. -/
theorem joined_zero (c0 : FVec Ideal S2097152x1 .f32) (feat : FVec Ideal S2097152x4 .f32) (n : Fin 2097152) :
    concatenate S2097152x5 1 [⟨S2097152x1, c0⟩, ⟨S2097152x4, feat⟩] concatenates_S2097152x1_S2097152x4_S2097152x5_d1
      (ix2 n (0 : Fin 5)) = c0 (ix2 n (0 : Fin 1)) :=
  Cert.LibConcatCols.concat_cols_left c0 feat _ n (0 : Fin 5) (by decide)

theorem joined_succ (c0 : FVec Ideal S2097152x1 .f32) (feat : FVec Ideal S2097152x4 .f32) (n : Fin 2097152) (k : Fin 4) :
    concatenate S2097152x5 1 [⟨S2097152x1, c0⟩, ⟨S2097152x4, feat⟩] concatenates_S2097152x1_S2097152x4_S2097152x5_d1
      (ix2 n k.succ) = feat (ix2 n k) := by
  have hk : k.val < 4 := k.isLt
  refine (Cert.LibConcatCols.concat_cols_right c0 feat _ n k.succ (by rw [Fin.val_succ]; omega)
    (by rw [Fin.val_succ]; omega)).trans ?_
  exact congrArg feat (funext fun b => Fin.ext (by
    match b with
    | ⟨0, _⟩ => rfl
    | ⟨1, _⟩ => show k.succ.val - 1 = k.val; rw [Fin.val_succ]; omega))

/-! ## The layers -/

/-- The first hidden layer of the reference at `(n, a)`. -/
theorem layer1_apply (c0 : FVec Ideal S2097152x1 .f32) (feat : FVec Ideal S2097152x4 .f32) (w1 : FVec Ideal S5x64 .f32)
    (b1 : FVec Ideal S64 .f32) (n : Fin 2097152) (a : Fin 64) :
    clamp (addf (Host.dotGeneral dot_S2097152x5_S5x64_S2097152x64_1_0_0_1_n_n none
        (concatenate S2097152x5 1 [⟨S2097152x1, c0⟩, ⟨S2097152x4, feat⟩] concatenates_S2097152x1_S2097152x4_S2097152x5_d1) w1)
        (biasRows b1)) (ix2 n a)
      = Mlp.hid1 (c0 (ix2 n (0 : Fin 1))) (fun k => feat (ix2 n k)) (fun a => w1 (ix2 (0 : Fin 5) a))
          (fun k a => w1 (ix2 k.succ a)) (fun a => b1 (ix1 a)) a := by
  rw [clamp_apply]
  show max (Host.dotGeneral dot_S2097152x5_S5x64_S2097152x64_1_0_0_1_n_n none _ w1 (ix2 n a) + biasRows b1 (ix2 n a)) Mlp.floor0 = _
  rw [prod_first, biasRows_apply]
  exact congrArg (fun s => max (s + b1 (ix1 a)) Mlp.floor0)
    (Mlp.sum_joined _ (fun k => w1 (ix2 k a)) _ _ (joined_zero c0 feat n) (fun k => joined_succ c0 feat n k))

/-- The second hidden layer of the reference at `(n, a)`, from row `n` of the first. -/
theorem layer2_apply (h : FVec Ideal S2097152x64 .f32) (w2 : FVec Ideal S64x64 .f32) (b2 : FVec Ideal S64 .f32)
    (n : Fin 2097152) (a : Fin 64) :
    clamp (addf (Host.dotGeneral dot_S2097152x64_S64x64_S2097152x64_1_0_0_1_n_n none h w2) (biasRows b2)) (ix2 n a)
      = Mlp.hid2 (fun k => h (ix2 n k)) (fun k a => w2 (ix2 k a)) (fun a => b2 (ix1 a)) a := by
  rw [clamp_apply]
  show max (Host.dotGeneral dot_S2097152x64_S64x64_S2097152x64_1_0_0_1_n_n none h w2 (ix2 n a) + biasRows b2 (ix2 n a)) Mlp.floor0 = _
  rw [prod_second, biasRows_apply]
  rfl

/-- The reference's result at `(n, p)` is output `p` of the network's row `n`. -/
theorem head_apply (c0 : FVec Ideal S2097152x1 .f32) (feat : FVec Ideal S2097152x4 .f32) (w1 : FVec Ideal S5x64 .f32)
    (b1 : FVec Ideal S64 .f32) (w2 : FVec Ideal S64x64 .f32) (b2 : FVec Ideal S64 .f32) (w3 : FVec Ideal S64x3 .f32)
    (b3 : FVec Ideal S3 .f32) (n : Fin 2097152) (p : Fin 3) :
    head c0 feat w1 b1 w2 b2 w3 b3 (ix2 n p)
      = Mlp.row (c0 (ix2 n (0 : Fin 1))) (fun k => feat (ix2 n k)) (fun a => w1 (ix2 (0 : Fin 5) a))
          (fun k a => w1 (ix2 k.succ a)) (fun a => b1 (ix1 a)) (fun k a => w2 (ix2 k a)) (fun a => b2 (ix1 a))
          (fun k p => w3 (ix2 k p)) (fun p => b3 (ix1 p)) p := by
  unfold head
  show Ideal.div (broadcastInDim S2097152x3 ![] bcast_S_S2097152x3 (constant (F := Ideal) S_ .f32 0x3F800000#32) (ix2 n p))
      (broadcastInDim S2097152x3 ![] bcast_S_S2097152x3 (constant (F := Ideal) S_ .f32 0x3F800000#32) (ix2 n p)
        + Ideal.exp (-(Host.dotGeneral dot_S2097152x64_S64x3_S2097152x3_1_0_0_1_n_n none _ w3 (ix2 n p)
            + broadcastInDim S2097152x3 ![0, 1] bcast_S1x3_S2097152x3_0_1 (broadcastInDim S1x3 ![1] bcast_S3_S1x3_1 b3) (ix2 n p)))) = _
  rw [broadcastInDim_scalar_apply, prod_third, broadcastInDim_oneRow_apply, Cert.Lib.RowOf.broadcastInDim_a_1a_apply]
  refine (Mlp.logistic_spelt _).trans ?_
  unfold Mlp.row Mlp.out
  refine congrArg (fun s => Ideal.logistic (s + b3 (ix1 p))) (Finset.sum_congr rfl fun k _ => ?_)
  refine congrArg (· * w3 (ix2 k p)) ?_
  rw [layer2_apply]
  refine congrArg (fun h => Mlp.hid2 h _ _ k) (funext fun j => ?_)
  exact layer1_apply c0 feat w1 b1 n j

/-- The reference's result is the network on its own arguments and its feature buffer. -/
theorem result_eq (M : Valuation τ sig (Elt Ideal)) :
    after (HostRun.ops (F := Ideal)) M (Proc.devRef .tc main_v120)
      = Net.net (M (Proc.devRef .tc main_arg0)) (after (HostRun.ops (F := Ideal)) M (Proc.devRef .tc main_v99))
          (M (Proc.devRef .tc main_arg2)) (M (Proc.devRef .tc main_arg3)) (M (Proc.devRef .tc main_arg4)) (M (Proc.devRef .tc main_arg5)) (M (Proc.devRef .tc main_arg6)) (M (Proc.devRef .tc main_arg7)) := by
  rw [result_head, idCol_eq]
  funext i
  obtain ⟨n, p, rfl⟩ : ∃ (n : Fin 2097152) (p : Fin 3), i = ix2 n p := ⟨i 0, i 1, eq_ix2 i⟩
  rw [head_apply]
  exact Mlp.row_congr (slice2_axis1_apply 0 _ _ n (0 : Fin 1) (0 : Fin 3) rfl) (fun _ => rfl) (fun _ => rfl)
    (fun _ _ => rfl) (fun _ => rfl) (fun _ _ => rfl) (fun _ => rfl) (fun _ _ => rfl) (fun _ => rfl) rfl

end Cert.ReferenceIdeal.RefValue

end
-- ==== Proof.FeatAgree.lean ====
/-
  The two programs compute the same interpolated features.

  Up to the 2097152 × 4 feature array both programs run the same host operations on the input and the embedding table:
  the two coordinate columns are scaled by the grid's side, truncated to cell indices (an index at the upper edge
  wrapped or clamped), the four corner rows of the table are gathered, and the corners are interpolated with the
  fractional parts as weights. So from arguments that agree the two feature buffers hold the same array: applied one
  after the other, the operations give the same composition on both sides.
-/
import proofs.«130771_j3255585210920_2_alg».proof.Proof.RefRun
import proofs.«130771_j3255585210920_2_alg».proof.Proof.Gen.KernelIdeal.Frame

set_option maxRecDepth 16384

noncomputable section

namespace Cert.FeatAgree

open Idealize.ShloMosaic Idealize.ShloMosaic.TcCoe Idealize.SL.Sem Idealize.ShloMosaic.StableHlo

variable {F : FTy → Type} [FloatOps F]

set_option maxHeartbeats 64000000 in
/-- From a valuation of the reference's buffers that agrees with the kernel program's launch contents on the input and
    on the embedding table, the reference's feature buffer ends at what the kernel program's feature buffer holds when
    its region is entered. -/
theorem feat_agree (m : (ℓ : Loc Cert.KernelIdeal.nD Cert.KernelIdeal.τ Cert.KernelIdeal.sig) → Buf (Elt F) ℓ)
    (c : Dev Cert.KernelIdeal.nD) (M' : Valuation Cert.ReferenceIdeal.τ Cert.ReferenceIdeal.sig (Elt F))
    (h0 : M' (Proc.devRef .tc Cert.ReferenceIdeal.main_arg0)
      = m ((c : Thread Cert.KernelIdeal.nD Cert.KernelIdeal.τ).loc Cert.KernelIdeal.main_arg0))
    (h1 : M' (Proc.devRef .tc Cert.ReferenceIdeal.main_arg1)
      = m ((c : Thread Cert.KernelIdeal.nD Cert.KernelIdeal.τ).loc Cert.KernelIdeal.main_arg1)) :
    after (Cert.ReferenceIdeal.HostRun.ops (F := F)) M' (Proc.devRef .tc Cert.ReferenceIdeal.main_v99)
      = Cert.KernelIdeal.Gen.V m c Cert.KernelIdeal.main_v99 := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append, List.nil_append]
  unfold Cert.ReferenceIdeal.HostRun.ops
  after_results_simp
  rw [h0, h1]
  rfl

end Cert.FeatAgree

end
-- ==== Proof.lean ====
/-
  The certificate of the grid-feature perceptron kernel against its reference.

  Both programs interpolate four features per row from an embedding table by the same host operations, and feed them,
  with the row's identifier, to a three-layer perceptron with a logistic output. The kernel program runs the perceptron
  feature-major inside one region over 128 blocks of 16384 rows — the first layer split into the identifier's term and
  the four features' product, weights pre-transposed, values passed through a narrower float format between the layers
  — and transposes the result; the reference joins the identifier to the features and applies three plain matrix
  products. On the extended reals a change of float format is the identity, sums and products are commutative and
  associative, and the logistic function is `1 / (1 + exp (−x))`, so both results are the same function of the
  arguments, entry by entry; no entry needs to be finite for that. The three programs' runs terminate with their
  arguments unchanged, and the idealized kernel program is the printed one read on the extended reals, nothing
  rewritten.
-/
import proofs.«130771_j3255585210920_2_alg».proof.Defs
import proofs.«130771_j3255585210920_2_alg».proof.Proof.Gen.Kernel
import proofs.«130771_j3255585210920_2_alg».proof.Proof.Gen.Kernel.Skeleton
import proofs.«130771_j3255585210920_2_alg».proof.Proof.Gen.Kernel.Launch
import proofs.«130771_j3255585210920_2_alg».proof.Proof.Gen.Kernel.Points
import proofs.«130771_j3255585210920_2_alg».proof.Proof.Gen.Kernel.Frame
import proofs.«130771_j3255585210920_2_alg».proof.Proof.Gen.KernelIdeal
import proofs.«130771_j3255585210920_2_alg».proof.Proof.Gen.KernelIdeal.Skeleton
import proofs.«130771_j3255585210920_2_alg».proof.Proof.Gen.KernelIdeal.Launch
import proofs.«130771_j3255585210920_2_alg».proof.Proof.Gen.KernelIdeal.Points
import proofs.«130771_j3255585210920_2_alg».proof.Proof.Gen.KernelIdeal.Frame
import proofs.«130771_j3255585210920_2_alg».proof.Proof.Gen.ReferenceIdeal
import proofs.«130771_j3255585210920_2_alg».proof.Proof.Gen.Pre_finite_inputs
import proofs.«130771_j3255585210920_2_alg».proof.Proof.KernelRun
import proofs.«130771_j3255585210920_2_alg».proof.Proof.RefValue
import proofs.«130771_j3255585210920_2_alg».proof.Proof.RefKept
import proofs.«130771_j3255585210920_2_alg».proof.Proof.FeatAgree
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's run with everything but the arguments dropped. -/
theorem frame_reference [Cert.ReferenceIdeal.Facts] [Cert.Pre_finite_inputs.Facts] : Cert.frame_ReferenceIdeal :=
  fun m ρ _ => (θ_run Cert.ReferenceIdeal.defs _ _).mono (fun _ h c =>
    ⟨(h c Cert.ReferenceIdeal.main_arg0).trans (Cert.ReferenceIdeal.RefKept.kept_arg0 _), (h c Cert.ReferenceIdeal.main_arg1).trans (Cert.ReferenceIdeal.RefKept.kept_arg1 _),
      (h c Cert.ReferenceIdeal.main_arg2).trans (Cert.ReferenceIdeal.RefKept.kept_arg2 _), (h c Cert.ReferenceIdeal.main_arg3).trans (Cert.ReferenceIdeal.RefKept.kept_arg3 _),
      (h c Cert.ReferenceIdeal.main_arg4).trans (Cert.ReferenceIdeal.RefKept.kept_arg4 _), (h c Cert.ReferenceIdeal.main_arg5).trans (Cert.ReferenceIdeal.RefKept.kept_arg5 _),
      (h c Cert.ReferenceIdeal.main_arg6).trans (Cert.ReferenceIdeal.RefKept.kept_arg6 _), (h c Cert.ReferenceIdeal.main_arg7).trans (Cert.ReferenceIdeal.RefKept.kept_arg7 _)⟩)
    (Cert.ReferenceIdeal.HostRun.run_raw (F := Ideal) m ρ)

/-- Both idealized programs end with the network on the kernel program's arguments and interpolated features: the
    kernel program by its run, the reference by its own read through the arguments' agreement. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (Cert.KernelIdeal.Gen.V m c Cert.KernelIdeal.main_v99) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Value.run m ρ, ?_⟩
  refine (θ_run Cert.ReferenceIdeal.defs _ _).mono (fun r h c =>
    ⟨(h c Cert.ReferenceIdeal.main_v120).trans ?_, (h c Cert.ReferenceIdeal.main_arg0).trans (Cert.ReferenceIdeal.RefKept.kept_arg0 _),
      (h c Cert.ReferenceIdeal.main_arg1).trans (Cert.ReferenceIdeal.RefKept.kept_arg1 _), (h c Cert.ReferenceIdeal.main_arg2).trans (Cert.ReferenceIdeal.RefKept.kept_arg2 _),
      (h c Cert.ReferenceIdeal.main_arg3).trans (Cert.ReferenceIdeal.RefKept.kept_arg3 _), (h c Cert.ReferenceIdeal.main_arg4).trans (Cert.ReferenceIdeal.RefKept.kept_arg4 _),
      (h c Cert.ReferenceIdeal.main_arg5).trans (Cert.ReferenceIdeal.RefKept.kept_arg5 _), (h c Cert.ReferenceIdeal.main_arg6).trans (Cert.ReferenceIdeal.RefKept.kept_arg6 _),
      (h c Cert.ReferenceIdeal.main_arg7).trans (Cert.ReferenceIdeal.RefKept.kept_arg7 _)⟩)
    (Cert.ReferenceIdeal.HostRun.run_raw (F := Ideal) m' ρ')
  obtain ⟨a0, a1, a2, a3, a4, a5, a6, a7⟩ := hagree c
  rw [Cert.ReferenceIdeal.RefValue.result_eq, Cert.FeatAgree.feat_agree m c (launchContents m' c) a0 a1]
  show Cert.Net.net (m' ((c.tc : Thread Cert.ReferenceIdeal.nD Cert.ReferenceIdeal.τ).loc Cert.ReferenceIdeal.main_arg0)) _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
  rw [a0, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
